-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600x100 : Shape := ⟨2, ![409600, 100]⟩
abbrev S2x655360 : Shape := ⟨2, ![2, 655360]⟩
abbrev S2x65536 : Shape := ⟨2, ![2, 65536]⟩
abbrev S100x256 : Shape := ⟨2, ![100, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S409600x100 : S_.BroadcastsInDim S409600x100 (![] : Fin 0 → Fin S409600x100.rank)
  reducesTo_S409600x100_S_d0_1 : S409600x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg6 : FVec F S47 .f32) (main_v13 : IVec S_ 1) (main_v16 : IVec S256x47 1) : IVec S_ 1 :=
  let main_c_5 : IVec S_ 1 := constantI S_ 1 1#1
  let main_v17 : IVec S_ 1 := (fun x v => Host.reduce IntOp.andi x v reducesTo_S256x47_S_d0_1 h_S_) main_v16 main_c_5
  let main_v18 : IVec S_ 1 := andi main_v13 main_v17
  let main_v19 : FVec F S47 .f32 := Host.absf main_arg6
  let main_cst_6 : FVec F S_ .f32 := constant S_ .f32 0x7F800000#32
  let main_v20 : FVec F S47 .f32 := broadcastInDim S47 ![] bcast_S_S47 main_cst_6
  let main_v21 : IVec S47 1 := cmpf .olt main_v19 main_v20
  let main_c_7 : IVec S_ 1 := constantI S_ 1 1#1
  let main_v22 : IVec S_ 1 := (fun x v => Host.reduce IntOp.andi x v reducesTo_S47_S_d0 h_S_) main_v21 main_c_7
  let main_v23 : IVec S_ 1 := andi main_v18 main_v22
  main_v23

def fn {F : FTy → Type} [FloatOps F] (main_arg0 : FVec F S409600x100 .f32) (main_arg1 : IVec S2x655360 32) (main_arg2 : IVec S2x65536 32) (main_arg3 : FVec F S100x256 .f32) (main_arg4 : FVec F S256 .f32) (main_arg5 : FVec F S256x47 .f32) (main_arg6 : FVec F S47 .f32) : IVec S_ 1 :=
  let main_v0 : FVec F S409600x100 .f32 := Host.absf main_arg0
  let main_cst : FVec F S_ .f32 := constant S_ .f32 0x7F800000#32
  let main_v1 : FVec F S409600x100 .f32 := broadcastInDim S409600x100 ![] bcast_S_S409600x100 main_cst
  let main_v2 : IVec S409600x100 1 := cmpf .olt main_v0 main_v1
  let main_c : IVec S_ 1 := constantI S_ 1 1#1
  let main_v3 : IVec S_ 1 := (fun x v => Host.reduce IntOp.andi x v reducesTo_S409600x100_S_d0_1 h_S_) main_v2 main_c
  let main_v4 : FVec F S100x256 .f32 := Host.absf main_arg3
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x47 .f32 := Host.absf main_arg5
  let main_cst_4 : FVec F S_ .f32 := constant S_ .f32 0x7F800000#32
  let main_v15 : FVec F S256x47 .f32 := broadcastInDim S256x47 ![] bcast_S_S256x47 main_cst_4
  let main_v16 : IVec S256x47 1 := cmpf .olt main_v14 main_v15
  fn_part1 (F := F) main_arg6 main_v13 main_v16
-- ==== Kernel.lean ====
abbrev S409600x100 : Shape := ⟨2, ![409600, 100]⟩
abbrev S2x655360 : Shape := ⟨2, ![2, 655360]⟩
abbrev S2x65536 : Shape := ⟨2, ![2, 65536]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1x655360 : Shape := ⟨2, ![1, 655360]⟩
abbrev S655360 : Shape := ⟨1, ![655360]⟩
abbrev S_ : Shape := ⟨0, ![]⟩
abbrev S409600 : Shape := ⟨1, ![409600]⟩
abbrev S655360x1 : Shape := ⟨2, ![655360, 1]⟩
abbrev S655360x100 : Shape := ⟨2, ![655360, 100]⟩
abbrev S40960x100 : Shape := ⟨2, ![40960, 100]⟩
abbrev S40960x256 : Shape := ⟨2, ![40960, 256]⟩
abbrev S4096x100 : Shape := ⟨2, ![4096, 100]⟩
abbrev S4096x256 : Shape := ⟨2, ![4096, 256]⟩
abbrev S1x256 : Shape := ⟨2, ![1, 256]⟩
abbrev S256x128 : Shape := ⟨2, ![256, 128]⟩
abbrev S40960x128 : Shape := ⟨2, ![40960, 128]⟩
abbrev S4096x128 : Shape := ⟨2, ![4096, 128]⟩
abbrev S40960x47 : Shape := ⟨2, ![40960, 47]⟩
abbrev S1x65536 : Shape := ⟨2, ![1, 65536]⟩
abbrev S65536 : Shape := ⟨1, ![65536]⟩
abbrev S40960 : Shape := ⟨1, ![40960]⟩
abbrev S65536x1 : Shape := ⟨2, ![65536, 1]⟩
abbrev S65536x47 : Shape := ⟨2, ![65536, 47]⟩
abbrev S4096x47 : Shape := ⟨2, ![4096, 47]⟩
abbrev S1x47 : Shape := ⟨2, ![1, 47]⟩

abbrev nBuf : Space → Nat
  | .hbm => 134
  | .vmem => 10
  | .smem => 0
  | _ => 0

abbrev hbmTy0_0 (i : Nat) : BufTy := match i % 128 with
  | 0 => ⟨S409600x100, .f32⟩
  | 1 => ⟨S2x655360, .i32⟩
  | 2 => ⟨S2x65536, .i32⟩
  | 3 => ⟨S100x256, .f32⟩
  | 4 => ⟨S256, .f32⟩
  | 5 => ⟨S256x47, .f32⟩
  | 6 => ⟨S47, .f32⟩
  | 7 => ⟨S1x655360, .i32⟩
  | 8 => ⟨S655360, .i32⟩
  | 9 => ⟨S1x655360, .i32⟩
  | 10 => ⟨S655360, .i32⟩
  | 11 => ⟨S_, .f32⟩
  | 12 => ⟨S655360, .f32⟩
  | 13 => ⟨S_, .f32⟩
  | 14 => ⟨S409600, .f32⟩
  | 15 => ⟨S655360x1, .i32⟩
  | 16 => ⟨S409600, .f32⟩
  | 17 => ⟨S_, .f32⟩
  | 18 => ⟨S409600, .f32⟩
  | 19 => ⟨S409600, .i1⟩
  | 20 => ⟨S_, .f32⟩
  | 21 => ⟨S409600, .f32⟩
  | 22 => ⟨S409600, .f32⟩
  | 23 => ⟨S409600, .f32⟩
  | 24 => ⟨S_, .f32⟩
  | 25 => ⟨S_, .f32⟩
  | 26 => ⟨S409600, .f32⟩
  | 27 => ⟨S409600, .f32⟩
  | 28 => ⟨S_, .i32⟩
  | 29 => ⟨S655360, .i32⟩
  | 30 => ⟨S655360, .i1⟩
  | 31 => ⟨S_, .i32⟩
  | 32 => ⟨S655360, .i32⟩
  | 33 => ⟨S655360, .i32⟩
  | 34 => ⟨S655360, .i32⟩
  | 35 => ⟨S655360x1, .i32⟩
  | 36 => ⟨S655360, .f32⟩
  | 37 => ⟨S_, .i32⟩
  | 38 => ⟨S655360, .i32⟩
  | 39 => ⟨S655360, .i1⟩
  | 40 => ⟨S_, .i32⟩
  | 41 => ⟨S655360, .i32⟩
  | 42 => ⟨S655360, .i32⟩
  | 43 => ⟨S655360, .i32⟩
  | 44 => ⟨S655360x1, .i32⟩
  | 45 => ⟨S655360, .f32⟩
  | 46 => ⟨S655360, .f32⟩
  | 47 => ⟨S_, .i32⟩
  | 48 => ⟨S655360, .i32⟩
  | 49 => ⟨S655360, .i1⟩
  | 50 => ⟨S_, .i32⟩
  | 51 => ⟨S655360, .i32⟩
  | 52 => ⟨S655360, .i32⟩
  | 53 => ⟨S655360, .i32⟩
  | 54 => ⟨S655360x1, .i32⟩
  | 55 => ⟨S655360x100, .f32⟩
  | 56 => ⟨S655360x1, .f32⟩
  | 57 => ⟨S655360x100, .f32⟩
  | 58 => ⟨S655360x100, .f32⟩
  | 59 => ⟨S_, .f32⟩
  | 60 => ⟨S40960x100, .f32⟩
  | 61 => ⟨S655360x1, .i32⟩
  | 62 => ⟨S40960x100, .f32⟩
  | 63 => ⟨S40960x256, .f32⟩
  | 64 => ⟨S1x256, .f32⟩
  | 65 => ⟨S40960x256, .f32⟩
  | 66 => ⟨S40960x256, .f32⟩
  | 67 => ⟨S_, .f32⟩
  | 68 => ⟨S40960x256, .f32⟩
  | 69 => ⟨S40960x256, .f32⟩
  | 70 => ⟨S_, .i32⟩
  | 71 => ⟨S_, .f32⟩
  | 72 => ⟨S256x128, .f32⟩
  | 73 => ⟨S40960x128, .f32⟩
  | 74 => ⟨S40960x47, .f32⟩
  | 75 => ⟨S1x65536, .i32⟩
  | 76 => ⟨S65536, .i32⟩
  | 77 => ⟨S1x65536, .i32⟩
  | 78 => ⟨S65536, .i32⟩
  | 79 => ⟨S_, .f32⟩
  | 80 => ⟨S65536, .f32⟩
  | 81 => ⟨S_, .f32⟩
  | 82 => ⟨S40960, .f32⟩
  | 83 => ⟨S65536x1, .i32⟩
  | 84 => ⟨S40960, .f32⟩
  | 85 => ⟨S_, .f32⟩
  | 86 => ⟨S40960, .f32⟩
  | 87 => ⟨S40960, .i1⟩
  | 88 => ⟨S_, .f32⟩
  | 89 => ⟨S40960, .f32⟩
  | 90 => ⟨S40960, .f32⟩
  | 91 => ⟨S40960, .f32⟩
  | 92 => ⟨S_, .f32⟩
  | 93 => ⟨S_, .f32⟩
  | 94 => ⟨S40960, .f32⟩
  | 95 => ⟨S40960, .f32⟩
  | 96 => ⟨S_, .i32⟩
  | 97 => ⟨S65536, .i32⟩
  | 98 => ⟨S65536, .i1⟩
  | 99 => ⟨S_, .i32⟩
  | 100 => ⟨S65536, .i32⟩
  | 101 => ⟨S65536, .i32⟩
  | 102 => ⟨S65536, .i32⟩
  | 103 => ⟨S65536x1, .i32⟩
  | 104 => ⟨S65536, .f32⟩
  | 105 => ⟨S_, .i32⟩
  | 106 => ⟨S65536, .i32⟩
  | 107 => ⟨S65536, .i1⟩
  | 108 => ⟨S_, .i32⟩
  | 109 => ⟨S65536, .i32⟩
  | 110 => ⟨S65536, .i32⟩
  | 111 => ⟨S65536, .i32⟩
  | 112 => ⟨S65536x1, .i32⟩
  | 113 => ⟨S65536, .f32⟩
  | 114 => ⟨S65536, .f32⟩
  | 115 => ⟨S_, .i32⟩
  | 116 => ⟨S65536, .i32⟩
  | 117 => ⟨S65536, .i1⟩
  | 118 => ⟨S_, .i32⟩
  | 119 => ⟨S65536, .i32⟩
  | 120 => ⟨S65536, .i32⟩
  | 121 => ⟨S65536, .i32⟩
  | 122 => ⟨S65536x1, .i32⟩
  | 123 => ⟨S65536x47, .f32⟩
  | 124 => ⟨S65536x1, .f32⟩
  | 125 => ⟨S65536x47, .f32⟩
  | 126 => ⟨S65536x47, .f32⟩
  | 127 => ⟨S_, .f32⟩
  | _ => ⟨S409600x100, .f32⟩

abbrev hbmTy0_1 (i : Nat) : BufTy := match i % 128 with
  | 0 => ⟨S4096x47, .f32⟩
  | 1 => ⟨S65536x1, .i32⟩
  | 2 => ⟨S4096x47, .f32⟩
  | 3 => ⟨S1x47, .f32⟩
  | 4 => ⟨S4096x47, .f32⟩
  | 5 => ⟨S4096x47, .f32⟩
  | _ => ⟨S409600x100, .f32⟩

abbrev hbmTy (i : Nat) : BufTy := match i / 128 with
  | 0 => hbmTy0_0 i
  | 1 => hbmTy0_1 i
  | _ => ⟨S409600x100, .f32⟩

abbrev bufTy : (tb : Table) → Fin (tcTables nBuf tb) → BufTy
  | .hbm, ⟨i, _⟩ => hbmTy i
  | .local _ .vmem, ⟨0, _⟩ => ⟨S4096x100, .f32⟩
  | .local _ .vmem, ⟨1, _⟩ => ⟨S4096x100, .f32⟩
  | .local _ .vmem, ⟨2, _⟩ => ⟨S100x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S256x128, .f32⟩
  | .local _ .vmem, ⟨8, _⟩ => ⟨S4096x128, .f32⟩
  | .local _ .vmem, ⟨9, _⟩ => ⟨S4096x128, .f32⟩
  | _, _ => ⟨S409600x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_c_10 : Ref sig .tc := ⟨.hbm, 70, rfl⟩
abbrev main_call2_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_call3_v0 : Ref sig .tc := ⟨.hbm, 93, rfl⟩
abbrev main_call3_v1 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_c_21 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_22 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x655360_S1x655360_0_0 : S2x655360.Slices ![0, 0] S1x655360
  shapeCasts_S1x655360_S655360 : S1x655360.ShapeCasts S655360
  slices_S2x655360_S1x655360_1_0 : S2x655360.Slices ![1, 0] S1x655360
  bcast_S_S655360 : S_.BroadcastsInDim S655360 (![] : Fin 0 → Fin S655360.rank)
  bcast_S_S409600 : S_.BroadcastsInDim S409600 (![] : Fin 0 → Fin S409600.rank)
  bcast_S655360_S655360x1_0 : S655360.BroadcastsInDim S655360x1 (![0] : Fin 1 → Fin S655360x1.rank)
  bcast_S655360x1_S655360x100_0_1 : S655360x1.BroadcastsInDim S655360x100 (![0, 1] : Fin 2 → Fin S655360x100.rank)
  bcast_S_S40960x100 : S_.BroadcastsInDim S40960x100 (![] : Fin 0 → Fin S40960x100.rank)
  inb_S4096x100_S4096x100_0_0 : ∀ a, (![0, 0] : Fin 2 → Nat) a + S4096x100.size a ≤ S4096x100.size a
  h_S4096x100 : 0 < S4096x100.numel
  shapeCasts_S4096x100_S4096x100 : S4096x100.ShapeCasts S4096x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S4096x256_S4096x256_0_0 : ∀ a, (![0, 0] : Fin 2 → Nat) a + S4096x256.size a ≤ S4096x256.size a
  h_S4096x256 : 0 < S4096x256.numel
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  bcast_S_S40960x256 : S_.BroadcastsInDim S40960x256 (![] : Fin 0 → Fin S40960x256.rank)
  pads_S256x47_S256x128_000_0810 : S256x47.Pads (![0, 0] : Fin 2 → Nat) ![0, 81] ![0, 0] S256x128
  h_S_ : 0 < S_.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x128_S4096x128_0_0 : ∀ a, (![0, 0] : Fin 2 → Nat) a + S4096x128.size a ≤ S4096x128.size a
  h_S4096x128 : 0 < S4096x128.numel
  slices_S40960x128_S40960x47_0_0 : S40960x128.Slices ![0, 0] S40960x47
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S40960 : S_.BroadcastsInDim S40960 (![] : Fin 0 → Fin S40960.rank)
  bcast_S65536_S65536x1_0 : S65536.BroadcastsInDim S65536x1 (![0] : Fin 1 → Fin S65536x1.rank)
  bcast_S65536x1_S65536x47_0_1 : S65536x1.BroadcastsInDim S65536x47 (![0, 1] : Fin 2 → Fin S65536x47.rank)
  bcast_S_S4096x47 : S_.BroadcastsInDim S4096x47 (![] : Fin 0 → Fin S4096x47.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  scatter_S409600_S655360x1_S655360_n_0_0_1_wf : ScatterDims.WF S409600 S655360x1 S655360 [] [0] [0] 1
  gather_S409600_S655360x1_S655360_n_0_n_n_0_1_1_wf : GatherDims.WF S409600 S655360x1 S655360 [] [0] [] [0] [] 1 ![1]
  gather_S409600x100_S655360x1_S655360x100_1_0_n_n_0_1_1100_wf : GatherDims.WF S409600x100 S655360x1 S655360x100 [1] [0] [] [0] [] 1 ![1, 100]
  scatter_S40960x100_S655360x1_S655360x100_1_0_0_1_wf : ScatterDims.WF S40960x100 S655360x1 S655360x100 [1] [0] [0] 1
  dot_S4096x100_S100x256_S4096x256_1_0_0_1_n_n_wf : DotDims.WF S4096x100 S100x256 S4096x256 [1] [0] [0] [1] [] []
  dot_S4096x256_S256x128_S4096x128_1_0_0_1_n_n_wf : DotDims.WF S4096x256 S256x128 S4096x128 [1] [0] [0] [1] [] []
  scatter_S40960_S65536x1_S65536_n_0_0_1_wf : ScatterDims.WF S40960 S65536x1 S65536 [] [0] [0] 1
  gather_S40960_S65536x1_S65536_n_0_n_n_0_1_1_wf : GatherDims.WF S40960 S65536x1 S65536 [] [0] [] [0] [] 1 ![1]
  gather_S40960x47_S65536x1_S65536x47_1_0_n_n_0_1_147_wf : GatherDims.WF S40960x47 S65536x1 S65536x47 [1] [0] [] [0] [] 1 ![1, 47]
  scatter_S4096x47_S65536x1_S65536x47_1_0_0_1_wf : ScatterDims.WF S4096x47 S65536x1 S65536x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x100.size a ≤ S40960x100.size a
  hwx0_0 : ∀ i : grid0.Coords, EltTy.bits .f32 = 32 ∨ (Rect.block (s := S40960x100) S4096x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x256.size a
  hwx0_1 : ∀ i : grid0.Coords, EltTy.bits .f32 = 32 ∨ (Rect.block (s := S100x256) S100x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S40960x256.size a
  hwx0_2 : ∀ i : grid0.Coords, EltTy.bits .f32 = 32 ∨ (Rect.block (s := S40960x256) S4096x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S40960x256.size a
  hwx1_0 : ∀ i : grid1.Coords, EltTy.bits .f32 = 32 ∨ (Rect.block (s := S40960x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S40960x128.size a
  hwx1_2 : ∀ i : grid1.Coords, EltTy.bits .f32 = 32 ∨ (Rect.block (s := S40960x128) S4096x128.size (cc1_transform_2 i) (hinb1_2 i)).WholeWords (EltTy.packing .f32)

variable [Facts₀]

def scatter_S409600_S655360x1_S655360_n_0_0_1 : ScatterDims S409600 S655360x1 S655360 where
  updateWindowDims := []
  insertedWindowDims := [0]
  scatterDimsToOperandDims := [0]
  indexVectorDim := 1
  wf := scatter_S409600_S655360x1_S655360_n_0_0_1_wf
def gather_S409600_S655360x1_S655360_n_0_n_n_0_1_1 : GatherDims S409600 S655360x1 S655360 where
  offsetDims := []
  collapsedSliceDims := [0]
  operandBatchingDims := []
  startIndicesBatchingDims := []
  startIndexMap := [0]
  indexVectorDim := 1
  sliceSizes := ![1]
  wf := gather_S409600_S655360x1_S655360_n_0_n_n_0_1_1_wf
def gather_S409600x100_S655360x1_S655360x100_1_0_n_n_0_1_1100 : GatherDims S409600x100 S655360x1 S655360x100 where
  offsetDims := [1]
  collapsedSliceDims := [0]
  operandBatchingDims := []
  startIndicesBatchingDims := []
  startIndexMap := [0]
  indexVectorDim := 1
  sliceSizes := ![1, 100]
  wf := gather_S409600x100_S655360x1_S655360x100_1_0_n_n_0_1_1100_wf
def scatter_S40960x100_S655360x1_S655360x100_1_0_0_1 : ScatterDims S40960x100 S655360x1 S655360x100 where
  updateWindowDims := [1]
  insertedWindowDims := [0]
  scatterDimsToOperandDims := [0]
  indexVectorDim := 1
  wf := scatter_S40960x100_S655360x1_S655360x100_1_0_0_1_wf
def dot_S4096x100_S100x256_S4096x256_1_0_0_1_n_n : DotDims S4096x100 S100x256 S4096x256 where
  lhsContracting := [1]
  rhsContracting := [0]
  lhsNonContracting := [0]
  rhsNonContracting := [1]
  lhsBatch := []
  rhsBatch := []
  wf := dot_S4096x100_S100x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def scatter_S40960_S65536x1_S65536_n_0_0_1 : ScatterDims S40960 S65536x1 S65536 where
  updateWindowDims := []
  insertedWindowDims := [0]
  scatterDimsToOperandDims := [0]
  indexVectorDim := 1
  wf := scatter_S40960_S65536x1_S65536_n_0_0_1_wf
def gather_S40960_S65536x1_S65536_n_0_n_n_0_1_1 : GatherDims S40960 S65536x1 S65536 where
  offsetDims := []
  collapsedSliceDims := [0]
  operandBatchingDims := []
  startIndicesBatchingDims := []
  startIndexMap := [0]
  indexVectorDim := 1
  sliceSizes := ![1]
  wf := gather_S40960_S65536x1_S65536_n_0_n_n_0_1_1_wf
def gather_S40960x47_S65536x1_S65536x47_1_0_n_n_0_1_147 : GatherDims S40960x47 S65536x1 S65536x47 where
  offsetDims := [1]
  collapsedSliceDims := [0]
  operandBatchingDims := []
  startIndicesBatchingDims := []
  startIndexMap := [0]
  indexVectorDim := 1
  sliceSizes := ![1, 47]
  wf := gather_S40960x47_S65536x1_S65536x47_1_0_n_n_0_1_147_wf
def scatter_S4096x47_S65536x1_S65536x47_1_0_0_1 : ScatterDims S4096x47 S65536x1 S65536x47 where
  updateWindowDims := [1]
  insertedWindowDims := [0]
  scatterDimsToOperandDims := [0]
  indexVectorDim := 1
  wf := scatter_S4096x47_S65536x1_S65536x47_1_0_0_1_wf

abbrev win0_0 : Pipeline.Window sig grid0 :=
  Pipeline.Window.ofSpec (Memref.whole main_v41) S4096x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S409600x100 : Shape := ⟨2, ![409600, 100]⟩
abbrev S2x655360 : Shape := ⟨2, ![2, 655360]⟩
abbrev S2x65536 : Shape := ⟨2, ![2, 65536]⟩
abbrev S100x256 : Shape := ⟨2, ![100, 256]⟩
abbrev S256 : Shape := ⟨1, ![256]⟩
abbrev S256x47 : Shape := ⟨2, ![256, 47]⟩
abbrev S47 : Shape := ⟨1, ![47]⟩
abbrev S1x655360 : Shape := ⟨2, ![1, 655360]⟩
abbrev S655360 : Shape := ⟨1, ![655360]⟩
abbrev S_ : Shape := ⟨0, ![]⟩
abbrev S409600 : Shape := ⟨1, ![409600]⟩
abbrev S655360x1 : Shape := ⟨2, ![655360, 1]⟩
abbrev S409600x256 : Shape := ⟨2, ![409600, 256]⟩
abbrev S655360x256 : Shape := ⟨2, ![655360, 256]⟩
abbrev S40960x256 : Shape := ⟨2, ![40960, 256]⟩
abbrev S1x256 : Shape := ⟨2, ![1, 256]⟩
abbrev S1x65536 : Shape := ⟨2, ![1, 65536]⟩
abbrev S65536 : Shape := ⟨1, ![65536]⟩
abbrev S40960 : Shape := ⟨1, ![40960]⟩
abbrev S65536x1 : Shape := ⟨2, ![65536, 1]⟩
abbrev S40960x47 : Shape := ⟨2, ![40960, 47]⟩
abbrev S65536x47 : Shape := ⟨2, ![65536, 47]⟩
abbrev S4096x47 : Shape := ⟨2, ![4096, 47]⟩
abbrev S1x47 : Shape := ⟨2, ![1, 47]⟩

abbrev nBuf : Space → Nat
  | .hbm => 130
  | .vmem => 0
  | .smem => 0
  | _ => 0

abbrev hbmTy0_0 (i : Nat) : BufTy := match i % 128 with
  | 0 => ⟨S409600x100, .f32⟩
  | 1 => ⟨S2x655360, .i32⟩
  | 2 => ⟨S2x65536, .i32⟩
  | 3 => ⟨S100x256, .f32⟩
  | 4 => ⟨S256, .f32⟩
  | 5 => ⟨S256x47, .f32⟩
  | 6 => ⟨S47, .f32⟩
  | 7 => ⟨S1x655360, .i32⟩
  | 8 => ⟨S655360, .i32⟩
  | 9 => ⟨S1x655360, .i32⟩
  | 10 => ⟨S655360, .i32⟩
  | 11 => ⟨S_, .f32⟩
  | 12 => ⟨S655360, .f32⟩
  | 13 => ⟨S_, .f32⟩
  | 14 => ⟨S409600, .f32⟩
  | 15 => ⟨S655360x1, .i32⟩
  | 16 => ⟨S409600, .f32⟩
  | 17 => ⟨S_, .f32⟩
  | 18 => ⟨S409600, .f32⟩
  | 19 => ⟨S409600, .i1⟩
  | 20 => ⟨S_, .f32⟩
  | 21 => ⟨S409600, .f32⟩
  | 22 => ⟨S409600, .f32⟩
  | 23 => ⟨S409600, .f32⟩
  | 24 => ⟨S_, .f32⟩
  | 25 => ⟨S_, .f32⟩
  | 26 => ⟨S409600, .f32⟩
  | 27 => ⟨S409600, .f32⟩
  | 28 => ⟨S_, .i32⟩
  | 29 => ⟨S655360, .i32⟩
  | 30 => ⟨S655360, .i1⟩
  | 31 => ⟨S_, .i32⟩
  | 32 => ⟨S655360, .i32⟩
  | 33 => ⟨S655360, .i32⟩
  | 34 => ⟨S655360, .i32⟩
  | 35 => ⟨S655360x1, .i32⟩
  | 36 => ⟨S655360, .f32⟩
  | 37 => ⟨S_, .i32⟩
  | 38 => ⟨S655360, .i32⟩
  | 39 => ⟨S655360, .i1⟩
  | 40 => ⟨S_, .i32⟩
  | 41 => ⟨S655360, .i32⟩
  | 42 => ⟨S655360, .i32⟩
  | 43 => ⟨S655360, .i32⟩
  | 44 => ⟨S655360x1, .i32⟩
  | 45 => ⟨S655360, .f32⟩
  | 46 => ⟨S655360, .f32⟩
  | 47 => ⟨S409600x256, .f32⟩
  | 48 => ⟨S_, .i32⟩
  | 49 => ⟨S655360, .i32⟩
  | 50 => ⟨S655360, .i1⟩
  | 51 => ⟨S_, .i32⟩
  | 52 => ⟨S655360, .i32⟩
  | 53 => ⟨S655360, .i32⟩
  | 54 => ⟨S655360, .i32⟩
  | 55 => ⟨S655360x1, .i32⟩
  | 56 => ⟨S655360x256, .f32⟩
  | 57 => ⟨S655360x1, .f32⟩
  | 58 => ⟨S655360x256, .f32⟩
  | 59 => ⟨S655360x256, .f32⟩
  | 60 => ⟨S_, .f32⟩
  | 61 => ⟨S40960x256, .f32⟩
  | 62 => ⟨S655360x1, .i32⟩
  | 63 => ⟨S40960x256, .f32⟩
  | 64 => ⟨S1x256, .f32⟩
  | 65 => ⟨S40960x256, .f32⟩
  | 66 => ⟨S40960x256, .f32⟩
  | 67 => ⟨S_, .f32⟩
  | 68 => ⟨S40960x256, .f32⟩
  | 69 => ⟨S40960x256, .f32⟩
  | 70 => ⟨S1x65536, .i32⟩
  | 71 => ⟨S65536, .i32⟩
  | 72 => ⟨S1x65536, .i32⟩
  | 73 => ⟨S65536, .i32⟩
  | 74 => ⟨S_, .f32⟩
  | 75 => ⟨S65536, .f32⟩
  | 76 => ⟨S_, .f32⟩
  | 77 => ⟨S40960, .f32⟩
  | 78 => ⟨S65536x1, .i32⟩
  | 79 => ⟨S40960, .f32⟩
  | 80 => ⟨S_, .f32⟩
  | 81 => ⟨S40960, .f32⟩
  | 82 => ⟨S40960, .i1⟩
  | 83 => ⟨S_, .f32⟩
  | 84 => ⟨S40960, .f32⟩
  | 85 => ⟨S40960, .f32⟩
  | 86 => ⟨S40960, .f32⟩
  | 87 => ⟨S_, .f32⟩
  | 88 => ⟨S_, .f32⟩
  | 89 => ⟨S40960, .f32⟩
  | 90 => ⟨S40960, .f32⟩
  | 91 => ⟨S_, .i32⟩
  | 92 => ⟨S65536, .i32⟩
  | 93 => ⟨S65536, .i1⟩
  | 94 => ⟨S_, .i32⟩
  | 95 => ⟨S65536, .i32⟩
  | 96 => ⟨S65536, .i32⟩
  | 97 => ⟨S65536, .i32⟩
  | 98 => ⟨S65536x1, .i32⟩
  | 99 => ⟨S65536, .f32⟩
  | 100 => ⟨S_, .i32⟩
  | 101 => ⟨S65536, .i32⟩
  | 102 => ⟨S65536, .i1⟩
  | 103 => ⟨S_, .i32⟩
  | 104 => ⟨S65536, .i32⟩
  | 105 => ⟨S65536, .i32⟩
  | 106 => ⟨S65536, .i32⟩
  | 107 => ⟨S65536x1, .i32⟩
  | 108 => ⟨S65536, .f32⟩
  | 109 => ⟨S65536, .f32⟩
  | 110 => ⟨S40960x47, .f32⟩
  | 111 => ⟨S_, .i32⟩
  | 112 => ⟨S65536, .i32⟩
  | 113 => ⟨S65536, .i1⟩
  | 114 => ⟨S_, .i32⟩
  | 115 => ⟨S65536, .i32⟩
  | 116 => ⟨S65536, .i32⟩
  | 117 => ⟨S65536, .i32⟩
  | 118 => ⟨S65536x1, .i32⟩
  | 119 => ⟨S65536x47, .f32⟩
  | 120 => ⟨S65536x1, .f32⟩
  | 121 => ⟨S65536x47, .f32⟩
  | 122 => ⟨S65536x47, .f32⟩
  | 123 => ⟨S_, .f32⟩
  | 124 => ⟨S4096x47, .f32⟩
  | 125 => ⟨S65536x1, .i32⟩
  | 126 => ⟨S4096x47, .f32⟩
  | 127 => ⟨S1x47, .f32⟩
  | _ => ⟨S409600x100, .f32⟩

abbrev hbmTy0_1 (i : Nat) : BufTy := match i % 128 with
  | 0 => ⟨S4096x47, .f32⟩
  | 1 => ⟨S4096x47, .f32⟩
  | _ => ⟨S409600x100, .f32⟩

abbrev hbmTy (i : Nat) : BufTy := match i / 128 with
  | 0 => hbmTy0_0 i
  | 1 => hbmTy0_1 i
  | _ => ⟨S409600x100, .f32⟩

abbrev bufTy : (tb : Table) → Fin (tcTables nBuf tb) → BufTy
  | .hbm, ⟨i, _⟩ => hbmTy i
  | _, _ => ⟨S409600x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_call2_v0 : Ref sig .tc := ⟨.hbm, 88, rfl⟩
abbrev main_call2_v1 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_c_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_17 : Ref sig .tc := ⟨.hbm, 100, rfl⟩
abbrev main_v68 : Ref sig .tc := ⟨.hbm, 101, rfl⟩
abbrev main_v69 : Ref sig .tc := ⟨.hbm, 102, rfl⟩
abbrev main_c_18 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x655360_S1x655360_0_0 : S2x655360.Slices ![0, 0] S1x655360
  shapeCasts_S1x655360_S655360 : S1x655360.ShapeCasts S655360
  slices_S2x655360_S1x655360_1_0 : S2x655360.Slices ![1, 0] S1x655360
  bcast_S_S655360 : S_.BroadcastsInDim S655360 (![] : Fin 0 → Fin S655360.rank)
  bcast_S_S409600 : S_.BroadcastsInDim S409600 (![] : Fin 0 → Fin S409600.rank)
  bcast_S655360_S655360x1_0 : S655360.BroadcastsInDim S655360x1 (![0] : Fin 1 → Fin S655360x1.rank)
  bcast_S655360x1_S655360x256_0_1 : S655360x1.BroadcastsInDim S655360x256 (![0, 1] : Fin 2 → Fin S655360x256.rank)
  bcast_S_S40960x256 : S_.BroadcastsInDim S40960x256 (![] : Fin 0 → Fin S40960x256.rank)
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S40960 : S_.BroadcastsInDim S40960 (![] : Fin 0 → Fin S40960.rank)
  bcast_S65536_S65536x1_0 : S65536.BroadcastsInDim S65536x1 (![0] : Fin 1 → Fin S65536x1.rank)
  bcast_S65536x1_S65536x47_0_1 : S65536x1.BroadcastsInDim S65536x47 (![0, 1] : Fin 2 → Fin S65536x47.rank)
  bcast_S_S4096x47 : S_.BroadcastsInDim S4096x47 (![] : Fin 0 → Fin S4096x47.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  scatter_S409600_S655360x1_S655360_n_0_0_1_wf : ScatterDims.WF S409600 S655360x1 S655360 [] [0] [0] 1
  gather_S409600_S655360x1_S655360_n_0_n_n_0_1_1_wf : GatherDims.WF S409600 S655360x1 S655360 [] [0] [] [0] [] 1 ![1]
  dot_S409600x100_S100x256_S409600x256_1_0_0_1_n_n_wf : DotDims.WF S409600x100 S100x256 S409600x256 [1] [0] [0] [1] [] []
  gather_S409600x256_S655360x1_S655360x256_1_0_n_n_0_1_1256_wf : GatherDims.WF S409600x256 S655360x1 S655360x256 [1] [0] [] [0] [] 1 ![1, 256]
  scatter_S40960x256_S655360x1_S655360x256_1_0_0_1_wf : ScatterDims.WF S40960x256 S655360x1 S655360x256 [1] [0] [0] 1
  scatter_S40960_S65536x1_S65536_n_0_0_1_wf : ScatterDims.WF S40960 S65536x1 S65536 [] [0] [0] 1
  gather_S40960_S65536x1_S65536_n_0_n_n_0_1_1_wf : GatherDims.WF S40960 S65536x1 S65536 [] [0] [] [0] [] 1 ![1]
  dot_S40960x256_S256x47_S40960x47_1_0_0_1_n_n_wf : DotDims.WF S40960x256 S256x47 S40960x47 [1] [0] [0] [1] [] []
  gather_S40960x47_S65536x1_S65536x47_1_0_n_n_0_1_147_wf : GatherDims.WF S40960x47 S65536x1 S65536x47 [1] [0] [] [0] [] 1 ![1, 47]
  scatter_S4096x47_S65536x1_S65536x47_1_0_0_1_wf : ScatterDims.WF S4096x47 S65536x1 S65536x47 [1] [0] [0] 1

variable [Facts₀]

def scatter_S409600_S655360x1_S655360_n_0_0_1 : ScatterDims S409600 S655360x1 S655360 where
  updateWindowDims := []
  insertedWindowDims := [0]
  scatterDimsToOperandDims := [0]
  indexVectorDim := 1
  wf := scatter_S409600_S655360x1_S655360_n_0_0_1_wf
def gather_S409600_S655360x1_S655360_n_0_n_n_0_1_1 : GatherDims S409600 S655360x1 S655360 where
  offsetDims := []
  collapsedSliceDims := [0]
  operandBatchingDims := []
  startIndicesBatchingDims := []
  startIndexMap := [0]
  indexVectorDim := 1
  sliceSizes := ![1]
  wf := gather_S409600_S655360x1_S655360_n_0_n_n_0_1_1_wf
def dot_S409600x100_S100x256_S409600x256_1_0_0_1_n_n : DotDims S409600x100 S100x256 S409600x256 where
  lhsContracting := [1]
  rhsContracting := [0]
  lhsNonContracting := [0]
  rhsNonContracting := [1]
  lhsBatch := []
  rhsBatch := []
  wf := dot_S409600x100_S100x256_S409600x256_1_0_0_1_n_n_wf
def gather_S409600x256_S655360x1_S655360x256_1_0_n_n_0_1_1256 : GatherDims S409600x256 S655360x1 S655360x256 where
  offsetDims := [1]
  collapsedSliceDims := [0]
  operandBatchingDims := []
  startIndicesBatchingDims := []
  startIndexMap := [0]
  indexVectorDim := 1
  sliceSizes := ![1, 256]
  wf := gather_S409600x256_S655360x1_S655360x256_1_0_n_n_0_1_1256_wf
def scatter_S40960x256_S655360x1_S655360x256_1_0_0_1 : ScatterDims S40960x256 S655360x1 S655360x256 where
  updateWindowDims := [1]
  insertedWindowDims := [0]
  scatterDimsToOperandDims := [0]
  indexVectorDim := 1
  wf := scatter_S40960x256_S655360x1_S655360x256_1_0_0_1_wf
def scatter_S40960_S65536x1_S65536_n_0_0_1 : ScatterDims S40960 S65536x1 S65536 where
  updateWindowDims := []
  insertedWindowDims := [0]
  scatterDimsToOperandDims := [0]
  indexVectorDim := 1
  wf := scatter_S40960_S65536x1_S65536_n_0_0_1_wf
def gather_S40960_S65536x1_S65536_n_0_n_n_0_1_1 : GatherDims S40960 S65536x1 S65536 where
  offsetDims := []
  collapsedSliceDims := [0]
  operandBatchingDims := []
  startIndicesBatchingDims := []
  startIndexMap := [0]
  indexVectorDim := 1
  sliceSizes := ![1]
  wf := gather_S40960_S65536x1_S65536_n_0_n_n_0_1_1_wf
def dot_S40960x256_S256x47_S40960x47_1_0_0_1_n_n : DotDims S40960x256 S256x47 S40960x47 where
  lhsContracting := [1]
  rhsContracting := [0]
  lhsNonContracting := [0]
  rhsNonContracting := [1]
  lhsBatch := []
  rhsBatch := []
  wf := dot_S40960x256_S256x47_S40960x47_1_0_0_1_n_n_wf
def gather_S40960x47_S65536x1_S65536x47_1_0_n_n_0_1_147 : GatherDims S40960x47 S65536x1 S65536x47 where
  offsetDims := [1]
  collapsedSliceDims := [0]
  operandBatchingDims := []
  startIndicesBatchingDims := []
  startIndexMap := [0]
  indexVectorDim := 1
  sliceSizes := ![1, 47]
  wf := gather_S40960x47_S65536x1_S65536x47_1_0_n_n_0_1_147_wf
def scatter_S4096x47_S65536x1_S65536x47_1_0_0_1 : ScatterDims S4096x47 S65536x1 S65536x47 where
  updateWindowDims := [1]
  insertedWindowDims := [0]
  scatterDimsToOperandDims := [0]
  indexVectorDim := 1
  wf := scatter_S4096x47_S65536x1_S65536x47_1_0_0_1_wf

class Facts : Prop extends Facts₀ where

variable [Facts]
-- ==== Proof.WholeRun.lean ====
/-
  The idealized kernel's whole run, with every buffer's final contents named.

  The program is ten stretches of host operations around two pipelined matrix products.  Its generated frame
  follows the buffer contents from the launch memory through each stretch and each product (the fold `W0`, …,
  `W12`) and then keeps of the last contents only that the arguments are unchanged.  Here the same launch is
  read with nothing dropped: every weakly fair execution terminates without a fault, and each buffer that lives
  for the whole program ends at the fold's last contents `W12`.  What `W12` holds at the result buffer is then a
  calculation on the fold alone.
-/
import proofs.«112371_j52364241273249_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with every program-long buffer
    of every core at the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Whole

end
-- ==== Proof.Stages.lean ====
/-
  The two-layer graph convolution, stage by stage, as functions of the arrays (read at the extended reals).

  For a layer with edge table `ei` (row 0: source of each edge, row 1: target):
    col   the targets as a column of words (the table the aggregation scatters by);
    row   the sources, a negative word shifted up by the number of source rows, as a column (the table rows are gathered by);
    ncol  the targets, normalised the same way (the second table the degree scaling is gathered by);
    deg   the number of edges into each node: ones scattered and added by `col` into zeros;
    dis   deg^(-1/2) where deg > 0 (the root taken of max(deg, 1)), else 0;
    nrm   the edge weights dis[source] · dis[target], as a column.
  Layer 0 (655360 edges, 409600 source rows, 40960 targets, 100 → 256 features), in the reference's order:
    pre0  project every source row by the weights, gather the projected rows by `row`, scale each by its edge weight and
          add them up by `col` into zeros;
    act0  add the bias row to every row and clamp below at zero.
  Layer 1 (65536 edges, 40960 source rows, 4096 targets, 47 features), given the projected rows `h1`:
    out1  gather by `row`, scale, add up by `col` into zeros, add the bias row.
  `refOut` composes them as the reference does; its result term is exactly this composition.
-/
import proofs.«112371_j52364241273249_2_alg».proof.Proof.Gen.ReferenceIdeal
import Idealize.ShloMosaic.PureOps.Ideal
import Idealize.ShloMosaic.PureOps.Ideal.Laws
import proofs.«112371_j52364241273249_2_alg».proof.Proof.RefRunPatched

noncomputable section

namespace Cert.Stages

open Idealize.ShloMosaic Idealize.ShloMosaic.TcCoe Idealize.SL.Sem
open Cert.ReferenceIdeal Cert.ReferenceIdeal.Facts₀ Cert.ReferenceIdeal.Facts

/-- Word arrays and float arrays of a shape, as a buffer of that type holds them at the extended reals. -/
abbrev CI (s : Shape) : Type := IVec s 32
abbrev CF (s : Shape) : Type := FVec Ideal s .f32

/-! ## Layer 0 -/

def col0 (ei : CI S2x655360) : CI S655360x1 := broadcastInDim S655360x1 ![0] bcast_S655360_S655360x1_0 (shapeCast _ (extractStridedSlice S1x655360 ![1, 0] ei slices_S2x655360_S1x655360_1_0) shapeCasts_S1x655360_S655360)
def row0 (ei : CI S2x655360) : CI S655360x1 := broadcastInDim S655360x1 ![0] bcast_S655360_S655360x1_0 (select (cmpi .slt (shapeCast _ (extractStridedSlice S1x655360 ![0, 0] ei slices_S2x655360_S1x655360_0_0) shapeCasts_S1x655360_S655360) (broadcastInDim S655360 ![] bcast_S_S655360 (constantI S_ 32 0#32))) (addi (shapeCast _ (extractStridedSlice S1x655360 ![0, 0] ei slices_S2x655360_S1x655360_0_0) shapeCasts_S1x655360_S655360) (broadcastInDim S655360 ![] bcast_S_S655360 (constantI S_ 32 409600#32))) (shapeCast _ (extractStridedSlice S1x655360 ![0, 0] ei slices_S2x655360_S1x655360_0_0) shapeCasts_S1x655360_S655360))
def ncol0 (ei : CI S2x655360) : CI S655360x1 := broadcastInDim S655360x1 ![0] bcast_S655360_S655360x1_0 (select (cmpi .slt (shapeCast _ (extractStridedSlice S1x655360 ![1, 0] ei slices_S2x655360_S1x655360_1_0) shapeCasts_S1x655360_S655360) (broadcastInDim S655360 ![] bcast_S_S655360 (constantI S_ 32 0#32))) (addi (shapeCast _ (extractStridedSlice S1x655360 ![1, 0] ei slices_S2x655360_S1x655360_1_0) shapeCasts_S1x655360_S655360) (broadcastInDim S655360 ![] bcast_S_S655360 (constantI S_ 32 409600#32))) (shapeCast _ (extractStridedSlice S1x655360 ![1, 0] ei slices_S2x655360_S1x655360_1_0) shapeCasts_S1x655360_S655360))
def deg0 (ei : CI S2x655360) : CF S409600 := Host.scatterAdd (F := Ideal) scatter_S409600_S655360x1_S655360_n_0_0_1 (broadcastInDim S409600 ![] bcast_S_S409600 (constant (F := Ideal) S_ .f32 0x00000000#32)) (broadcastInDim S655360x1 ![0] bcast_S655360_S655360x1_0 (shapeCast _ (extractStridedSlice S1x655360 ![1, 0] ei slices_S2x655360_S1x655360_1_0) shapeCasts_S1x655360_S655360)) (broadcastInDim S655360 ![] bcast_S_S655360 (constant (F := Ideal) S_ .f32 0x3F800000#32))
def dis0 (ei : CI S2x655360) : CF S409600 := select (cmpf .ogt (deg0 ei) (broadcastInDim S409600 ![] bcast_S_S409600 (constant (F := Ideal) S_ .f32 0x00000000#32))) (Host.rsqrt (maximumf (deg0 ei) (broadcastInDim S409600 ![] bcast_S_S409600 (constant (F := Ideal) S_ .f32 0x3F800000#32)))) (broadcastInDim S409600 ![] bcast_S_S409600 (id (constant (F := Ideal) S_ .f32 0x00000000#32)))
def nrm0 (ei : CI S2x655360) : CF S655360x1 := broadcastInDim S655360x1 ![0] bcast_S655360_S655360x1_0 (mulf (Host.gather gather_S409600_S655360x1_S655360_n_0_n_n_0_1_1 (dis0 ei) (row0 ei)) (Host.gather gather_S409600_S655360x1_S655360_n_0_n_n_0_1_1 (dis0 ei) (ncol0 ei)))
def pre0 (ei : CI S2x655360) (x : CF S409600x100) (W0 : CF S100x256) : CF S40960x256 := Host.scatterAdd (F := Ideal) scatter_S40960x256_S655360x1_S655360x256_1_0_0_1 (broadcastInDim S40960x256 ![] bcast_S_S40960x256 (constant (F := Ideal) S_ .f32 0x00000000#32)) (col0 ei) (mulf (Host.gather gather_S409600x256_S655360x1_S655360x256_1_0_n_n_0_1_1256 (Host.dotGeneral (F := Ideal) dot_S409600x100_S100x256_S409600x256_1_0_0_1_n_n none x W0) (row0 ei)) (broadcastInDim S655360x256 ![0, 1] bcast_S655360x1_S655360x256_0_1 (nrm0 ei)))
def act0 (pre : CF S40960x256) (b0 : CF S256) : CF S40960x256 := maximumf (addf pre (broadcastInDim S40960x256 ![0, 1] bcast_S1x256_S40960x256_0_1 (broadcastInDim S1x256 ![1] bcast_S256_S1x256_1 b0))) (broadcastInDim S40960x256 ![] bcast_S_S40960x256 (constant (F := Ideal) S_ .f32 0x00000000#32))

/-! ## Layer 1 -/

def col1 (ei : CI S2x65536) : CI S65536x1 := broadcastInDim S65536x1 ![0] bcast_S65536_S65536x1_0 (shapeCast _ (extractStridedSlice S1x65536 ![1, 0] ei slices_S2x65536_S1x65536_1_0) shapeCasts_S1x65536_S65536)
def row1 (ei : CI S2x65536) : CI S65536x1 := broadcastInDim S65536x1 ![0] bcast_S65536_S65536x1_0 (select (cmpi .slt (shapeCast _ (extractStridedSlice S1x65536 ![0, 0] ei slices_S2x65536_S1x65536_0_0) shapeCasts_S1x65536_S65536) (broadcastInDim S65536 ![] bcast_S_S65536 (constantI S_ 32 0#32))) (addi (shapeCast _ (extractStridedSlice S1x65536 ![0, 0] ei slices_S2x65536_S1x65536_0_0) shapeCasts_S1x65536_S65536) (broadcastInDim S65536 ![] bcast_S_S65536 (constantI S_ 32 40960#32))) (shapeCast _ (extractStridedSlice S1x65536 ![0, 0] ei slices_S2x65536_S1x65536_0_0) shapeCasts_S1x65536_S65536))
def ncol1 (ei : CI S2x65536) : CI S65536x1 := broadcastInDim S65536x1 ![0] bcast_S65536_S65536x1_0 (select (cmpi .slt (shapeCast _ (extractStridedSlice S1x65536 ![1, 0] ei slices_S2x65536_S1x65536_1_0) shapeCasts_S1x65536_S65536) (broadcastInDim S65536 ![] bcast_S_S65536 (constantI S_ 32 0#32))) (addi (shapeCast _ (extractStridedSlice S1x65536 ![1, 0] ei slices_S2x65536_S1x65536_1_0) shapeCasts_S1x65536_S65536) (broadcastInDim S65536 ![] bcast_S_S65536 (constantI S_ 32 40960#32))) (shapeCast _ (extractStridedSlice S1x65536 ![1, 0] ei slices_S2x65536_S1x65536_1_0) shapeCasts_S1x65536_S65536))
def deg1 (ei : CI S2x65536) : CF S40960 := Host.scatterAdd (F := Ideal) scatter_S40960_S65536x1_S65536_n_0_0_1 (broadcastInDim S40960 ![] bcast_S_S40960 (constant (F := Ideal) S_ .f32 0x00000000#32)) (broadcastInDim S65536x1 ![0] bcast_S65536_S65536x1_0 (shapeCast _ (extractStridedSlice S1x65536 ![1, 0] ei slices_S2x65536_S1x65536_1_0) shapeCasts_S1x65536_S65536)) (broadcastInDim S65536 ![] bcast_S_S65536 (constant (F := Ideal) S_ .f32 0x3F800000#32))
def dis1 (ei : CI S2x65536) : CF S40960 := select (cmpf .ogt (deg1 ei) (broadcastInDim S40960 ![] bcast_S_S40960 (constant (F := Ideal) S_ .f32 0x00000000#32))) (Host.rsqrt (maximumf (deg1 ei) (broadcastInDim S40960 ![] bcast_S_S40960 (constant (F := Ideal) S_ .f32 0x3F800000#32)))) (broadcastInDim S40960 ![] bcast_S_S40960 (id (constant (F := Ideal) S_ .f32 0x00000000#32)))
def nrm1 (ei : CI S2x65536) : CF S65536x1 := broadcastInDim S65536x1 ![0] bcast_S65536_S65536x1_0 (mulf (Host.gather gather_S40960_S65536x1_S65536_n_0_n_n_0_1_1 (dis1 ei) (row1 ei)) (Host.gather gather_S40960_S65536x1_S65536_n_0_n_n_0_1_1 (dis1 ei) (ncol1 ei)))
def out1 (ei : CI S2x65536) (h1 : CF S40960x47) (b1 : CF S47) : CF S4096x47 := addf (Host.scatterAdd (F := Ideal) scatter_S4096x47_S65536x1_S65536x47_1_0_0_1 (broadcastInDim S4096x47 ![] bcast_S_S4096x47 (constant (F := Ideal) S_ .f32 0x00000000#32)) (col1 ei) (mulf (Host.gather gather_S40960x47_S65536x1_S65536x47_1_0_n_n_0_1_147 h1 (row1 ei)) (broadcastInDim S65536x47 ![0, 1] bcast_S65536x1_S65536x47_0_1 (nrm1 ei)))) (broadcastInDim S4096x47 ![0, 1] bcast_S1x47_S4096x47_0_1 (broadcastInDim S1x47 ![1] bcast_S47_S1x47_1 b1))

/-- The reference's second projection: the hidden features against the second layer's weights. -/
def proj1 (h : CF S40960x256) (W1 : CF S256x47) : CF S40960x47 :=
  Host.dotGeneral (F := Ideal) dot_S40960x256_S256x47_S40960x47_1_0_0_1_n_n none h W1

/-- The reference, composed. -/
def refOut (x : CF S409600x100) (ei0 : CI S2x655360) (ei1 : CI S2x65536) (W0 : CF S100x256) (b0 : CF S256)
    (W1 : CF S256x47) (b1 : CF S47) : CF S4096x47 :=
  out1 ei1 (proj1 (act0 (pre0 ei0 x W0) b0) W1) b1

/-- The reference run's result term is that composition of the arguments. -/
theorem res_eq (m : (ℓ : Loc nD τ sig) → Buf (Elt Ideal) ℓ) (c : Dev nD) :
    Cert.ReferenceIdeal.ValueP.res_main_v92 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.ValueP.res_main_v92
  rfl

end Cert.Stages

end
-- ==== Proof.KStages.lean ====
/-
  The graph convolution's stages in the kernel program's own vocabulary, at any float values.

  The same functions as the shared stages (the tables `col`, `row`, `ncol`, the degree `deg`, the scaling `dis`, the edge
  weights `nrm`, the activation `act0`, the last aggregation `out1`), written with the kernel program's records of
  shapes and dimension numbers, together with the three stages only the kernel has: `agg0` (aggregation of the 100-wide
  source rows before the projection), `padW` (the second layer's weights with 81 columns of padding) and `cut47` (the
  first 47 columns of a 128-column array).  They are stated for any float values `F`: what a buffer holds after a stretch
  of host operations is a matter of which operation feeds which, not of what the operations compute.
-/
import proofs.«112371_j52364241273249_2_alg».proof.Proof.Gen.KernelIdeal
import Idealize.ShloMosaic.PureOps.Ideal
import Idealize.ShloMosaic.PureOps.Ideal.Laws

noncomputable section

namespace Cert.KernelIdeal.KStages

open Idealize.ShloMosaic
open Cert.KernelIdeal Cert.KernelIdeal.Facts₀ Cert.KernelIdeal.Facts

variable {F : FTy → Type} [FloatOps F]

def col0 (ei : IVec S2x655360 32) : IVec S655360x1 32 := broadcastInDim S655360x1 ![0] bcast_S655360_S655360x1_0 (shapeCast _ (extractStridedSlice S1x655360 ![1, 0] ei slices_S2x655360_S1x655360_1_0) shapeCasts_S1x655360_S655360)
def row0 (ei : IVec S2x655360 32) : IVec S655360x1 32 := broadcastInDim S655360x1 ![0] bcast_S655360_S655360x1_0 (select (cmpi .slt (shapeCast _ (extractStridedSlice S1x655360 ![0, 0] ei slices_S2x655360_S1x655360_0_0) shapeCasts_S1x655360_S655360) (broadcastInDim S655360 ![] bcast_S_S655360 (constantI S_ 32 0#32))) (addi (shapeCast _ (extractStridedSlice S1x655360 ![0, 0] ei slices_S2x655360_S1x655360_0_0) shapeCasts_S1x655360_S655360) (broadcastInDim S655360 ![] bcast_S_S655360 (constantI S_ 32 409600#32))) (shapeCast _ (extractStridedSlice S1x655360 ![0, 0] ei slices_S2x655360_S1x655360_0_0) shapeCasts_S1x655360_S655360))
def ncol0 (ei : IVec S2x655360 32) : IVec S655360x1 32 := broadcastInDim S655360x1 ![0] bcast_S655360_S655360x1_0 (select (cmpi .slt (shapeCast _ (extractStridedSlice S1x655360 ![1, 0] ei slices_S2x655360_S1x655360_1_0) shapeCasts_S1x655360_S655360) (broadcastInDim S655360 ![] bcast_S_S655360 (constantI S_ 32 0#32))) (addi (shapeCast _ (extractStridedSlice S1x655360 ![1, 0] ei slices_S2x655360_S1x655360_1_0) shapeCasts_S1x655360_S655360) (broadcastInDim S655360 ![] bcast_S_S655360 (constantI S_ 32 409600#32))) (shapeCast _ (extractStridedSlice S1x655360 ![1, 0] ei slices_S2x655360_S1x655360_1_0) shapeCasts_S1x655360_S655360))
def deg0 (ei : IVec S2x655360 32) : FVec F S409600 .f32 := Host.scatterAdd (F := F) scatter_S409600_S655360x1_S655360_n_0_0_1 (broadcastInDim S409600 ![] bcast_S_S409600 (constant (F := F) S_ .f32 0x00000000#32)) (broadcastInDim S655360x1 ![0] bcast_S655360_S655360x1_0 (shapeCast _ (extractStridedSlice S1x655360 ![1, 0] ei slices_S2x655360_S1x655360_1_0) shapeCasts_S1x655360_S655360)) (broadcastInDim S655360 ![] bcast_S_S655360 (constant (F := F) S_ .f32 0x3F800000#32))
def dis0 (ei : IVec S2x655360 32) : FVec F S409600 .f32 := select (cmpf .ogt (deg0 (F := F) ei) (broadcastInDim S409600 ![] bcast_S_S409600 (constant (F := F) S_ .f32 0x00000000#32))) (Host.rsqrt (maximumf (deg0 (F := F) ei) (broadcastInDim S409600 ![] bcast_S_S409600 (constant (F := F) S_ .f32 0x3F800000#32)))) (broadcastInDim S409600 ![] bcast_S_S409600 (id (constant (F := F) S_ .f32 0x00000000#32)))
def nrm0 (ei : IVec S2x655360 32) : FVec F S655360x1 .f32 := broadcastInDim S655360x1 ![0] bcast_S655360_S655360x1_0 (mulf (Host.gather gather_S409600_S655360x1_S655360_n_0_n_n_0_1_1 (dis0 (F := F) ei) (row0 ei)) (Host.gather gather_S409600_S655360x1_S655360_n_0_n_n_0_1_1 (dis0 (F := F) ei) (ncol0 ei)))
def agg0 (ei : IVec S2x655360 32) (x : FVec F S409600x100 .f32) : FVec F S40960x100 .f32 :=
  Host.scatterAdd (F := F) scatter_S40960x100_S655360x1_S655360x100_1_0_0_1
    (broadcastInDim S40960x100 ![] bcast_S_S40960x100 (constant (F := F) S_ .f32 0x00000000#32)) (col0 ei)
    (mulf (Host.gather gather_S409600x100_S655360x1_S655360x100_1_0_n_n_0_1_1100 x (row0 ei))
      (broadcastInDim S655360x100 ![0, 1] bcast_S655360x1_S655360x100_0_1 (nrm0 (F := F) ei)))
def act0 (pre : FVec F S40960x256 .f32) (b0 : FVec F S256 .f32) : FVec F S40960x256 .f32 := maximumf (addf pre (broadcastInDim S40960x256 ![0, 1] bcast_S1x256_S40960x256_0_1 (broadcastInDim S1x256 ![1] bcast_S256_S1x256_1 b0))) (broadcastInDim S40960x256 ![] bcast_S_S40960x256 (constant (F := F) S_ .f32 0x00000000#32))
def padW (W1 : FVec F S256x47 .f32) : FVec F S256x128 .f32 :=
  pad S256x128 ![0, 0] ![0, 81] ![0, 0] W1 (sitofp (F := F) .f32 (constantI S_ 32 0#32)) pads_S256x47_S256x128_000_0810 h_S_
def cut47 (y : FVec F S40960x128 .f32) : FVec F S40960x47 .f32 :=
  extractStridedSlice S40960x47 ![0, 0] y slices_S40960x128_S40960x47_0_0

def col1 (ei : IVec S2x65536 32) : IVec S65536x1 32 := broadcastInDim S65536x1 ![0] bcast_S65536_S65536x1_0 (shapeCast _ (extractStridedSlice S1x65536 ![1, 0] ei slices_S2x65536_S1x65536_1_0) shapeCasts_S1x65536_S65536)
def row1 (ei : IVec S2x65536 32) : IVec S65536x1 32 := broadcastInDim S65536x1 ![0] bcast_S65536_S65536x1_0 (select (cmpi .slt (shapeCast _ (extractStridedSlice S1x65536 ![0, 0] ei slices_S2x65536_S1x65536_0_0) shapeCasts_S1x65536_S65536) (broadcastInDim S65536 ![] bcast_S_S65536 (constantI S_ 32 0#32))) (addi (shapeCast _ (extractStridedSlice S1x65536 ![0, 0] ei slices_S2x65536_S1x65536_0_0) shapeCasts_S1x65536_S65536) (broadcastInDim S65536 ![] bcast_S_S65536 (constantI S_ 32 40960#32))) (shapeCast _ (extractStridedSlice S1x65536 ![0, 0] ei slices_S2x65536_S1x65536_0_0) shapeCasts_S1x65536_S65536))
def ncol1 (ei : IVec S2x65536 32) : IVec S65536x1 32 := broadcastInDim S65536x1 ![0] bcast_S65536_S65536x1_0 (select (cmpi .slt (shapeCast _ (extractStridedSlice S1x65536 ![1, 0] ei slices_S2x65536_S1x65536_1_0) shapeCasts_S1x65536_S65536) (broadcastInDim S65536 ![] bcast_S_S65536 (constantI S_ 32 0#32))) (addi (shapeCast _ (extractStridedSlice S1x65536 ![1, 0] ei slices_S2x65536_S1x65536_1_0) shapeCasts_S1x65536_S65536) (broadcastInDim S65536 ![] bcast_S_S65536 (constantI S_ 32 40960#32))) (shapeCast _ (extractStridedSlice S1x65536 ![1, 0] ei slices_S2x65536_S1x65536_1_0) shapeCasts_S1x65536_S65536))
def deg1 (ei : IVec S2x65536 32) : FVec F S40960 .f32 := Host.scatterAdd (F := F) scatter_S40960_S65536x1_S65536_n_0_0_1 (broadcastInDim S40960 ![] bcast_S_S40960 (constant (F := F) S_ .f32 0x00000000#32)) (broadcastInDim S65536x1 ![0] bcast_S65536_S65536x1_0 (shapeCast _ (extractStridedSlice S1x65536 ![1, 0] ei slices_S2x65536_S1x65536_1_0) shapeCasts_S1x65536_S65536)) (broadcastInDim S65536 ![] bcast_S_S65536 (constant (F := F) S_ .f32 0x3F800000#32))
def dis1 (ei : IVec S2x65536 32) : FVec F S40960 .f32 := select (cmpf .ogt (deg1 (F := F) ei) (broadcastInDim S40960 ![] bcast_S_S40960 (constant (F := F) S_ .f32 0x00000000#32))) (Host.rsqrt (maximumf (deg1 (F := F) ei) (broadcastInDim S40960 ![] bcast_S_S40960 (constant (F := F) S_ .f32 0x3F800000#32)))) (broadcastInDim S40960 ![] bcast_S_S40960 (id (constant (F := F) S_ .f32 0x00000000#32)))
def nrm1 (ei : IVec S2x65536 32) : FVec F S65536x1 .f32 := broadcastInDim S65536x1 ![0] bcast_S65536_S65536x1_0 (mulf (Host.gather gather_S40960_S65536x1_S65536_n_0_n_n_0_1_1 (dis1 (F := F) ei) (row1 ei)) (Host.gather gather_S40960_S65536x1_S65536_n_0_n_n_0_1_1 (dis1 (F := F) ei) (ncol1 ei)))
def out1 (ei : IVec S2x65536 32) (h1 : FVec F S40960x47 .f32) (b1 : FVec F S47 .f32) : FVec F S4096x47 .f32 := addf (Host.scatterAdd (F := F) scatter_S4096x47_S65536x1_S65536x47_1_0_0_1 (broadcastInDim S4096x47 ![] bcast_S_S4096x47 (constant (F := F) S_ .f32 0x00000000#32)) (col1 ei) (mulf (Host.gather gather_S40960x47_S65536x1_S65536x47_1_0_n_n_0_1_147 h1 (row1 ei)) (broadcastInDim S65536x47 ![0, 1] bcast_S65536x1_S65536x47_0_1 (nrm1 (F := F) ei)))) (broadcastInDim S4096x47 ![0, 1] bcast_S1x47_S4096x47_0_1 (broadcastInDim S1x47 ![1] bcast_S47_S1x47_1 b1))

end Cert.KernelIdeal.KStages

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibDotGeneralIdx.lean ====
/-
  The host's matrix product read entry by entry over the extended reals, for any extents: rows by columns
  (`[m, k] · [k, n]`, the entry at `(a, b)` is `∑ c, A (a, c) · B (c, b)`). The dimension numbers are written out
  literally, so a program's own record of them unifies with the statement by unfolding.
-/
import Idealize.ShloMosaic.Lib.ValueIdx
import Idealize.ShloMosaic.PureOps.Ideal.Laws

open scoped BigOperators

noncomputable section

namespace Cert.LibDotGeneralIdx

open Idealize.ShloMosaic Idealize.ShloMosaic.ValueIdx

/-- Rows by columns on the host: the entry at `(a, b)` of an `m × k` by `k × n` product is the sum over the
    contracted coordinate of the products of the two entries. -/
theorem dotGeneral_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B
        (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.LibDotGeneralIdx

end
-- ==== Proof.LibConcatCols.lean ====
/-
  Two matrices with the same number of rows set side by side, read at one entry, for any extents and any entries.

  Joining an [n, k₁] matrix and an [n, k₂] matrix along their columns gives an [n, k] matrix (k = k₁ + k₂) whose row p
  is row p of the first followed by row p of the second: column q < k₁ reads the first matrix at (p, q), and column
  q = k₁ + c reads the second at (p, c).
-/
import Idealize.ShloMosaic.Lib.Pipeline.Value
import Idealize.ShloMosaic.Lib.ValueIdx

namespace Cert.LibConcatCols

open Idealize.ShloMosaic Idealize.ShloMosaic.ValueIdx

variable {α : Type}

/-- A column inside the first piece reads the first piece at the same row and column. -/
theorem concat_cols_left {n k₁ k₂ k : ℕ} (x : (⟨2, ![n, k₁]⟩ : Shape).Idx → α) (y : (⟨2, ![n, k₂]⟩ : Shape).Idx → α)
    (h : Shape.Concatenates [(⟨2, ![n, k₁]⟩ : Shape), (⟨2, ![n, k₂]⟩ : Shape)] ⟨2, ![n, k]⟩ 1)
    (p : Fin n) (q : Fin k) (c : Fin k₁) (hq : q.val = c.val) :
    concatenate ⟨2, ![n, k]⟩ 1 [⟨⟨2, ![n, k₁]⟩, x⟩, ⟨⟨2, ![n, k₂]⟩, y⟩] h (ix2 p q) = x (ix2 p c) :=
  concatenate_pair_apply_left 1 x y h (ix2 p q) rfl (ix2 p c) (fun d => by
    match d with
    | ⟨0, _⟩ => rfl
    | ⟨1, _⟩ => exact hq.symm)

/-- A column past the first piece reads the second piece at the same row, the first piece's width less. -/
theorem concat_cols_right {n k₁ k₂ k : ℕ} (x : (⟨2, ![n, k₁]⟩ : Shape).Idx → α) (y : (⟨2, ![n, k₂]⟩ : Shape).Idx → α)
    (h : Shape.Concatenates [(⟨2, ![n, k₁]⟩ : Shape), (⟨2, ![n, k₂]⟩ : Shape)] ⟨2, ![n, k]⟩ 1)
    (p : Fin n) (q : Fin k) (c : Fin k₂) (hq : q.val = k₁ + c.val) :
    concatenate ⟨2, ![n, k]⟩ 1 [⟨⟨2, ![n, k₁]⟩, x⟩, ⟨⟨2, ![n, k₂]⟩, y⟩] h (ix2 p q) = y (ix2 p c) :=
  concatenate_pair_apply_right 1 x y h (ix2 p q) rfl rfl (ix2 p c) (fun d hd => by
    match d with
    | ⟨0, _⟩ => rfl
    | ⟨1, _⟩ => exact absurd rfl hd) (by
    show c.val + k₁ = q.val
    omega)

end Cert.LibConcatCols
-- ==== Proof.LibMatProd.lean ====
/-
  The product of two matrices of extended reals as ONE function of the two arrays, `mm A B (a, b) = ∑ c, A (a, c) · B (c, b)`,
  for any extents, and the ways a program spells it:

  * a matrix product accumulated into zero, and the host's matrix product, are both `mm` of their operands;
  * a product whose left operand is a band of rows of a taller matrix is, row by row, the product with the taller matrix
    (an entry of a product depends on the left operand only through its own row);
  * against two matrices set side by side, the product's columns are those of the product with the left piece followed
    by those of the product with the right piece (an entry depends on the right operand only through its own column);
  * multiplying on the left does not mix columns: a column of `A · X` is `A` applied to the same column of `X`.

  Only commutativity-free rearrangements are used: no distributivity, so nothing here needs the entries to be finite.
-/
import Idealize.ShloMosaic.Lib.ValueIdx
import Idealize.ShloMosaic.Lib.Pipeline.Value
import Idealize.ShloMosaic.PureOps.Ideal.Laws
import proofs.«112371_j52364241273249_2_alg».proof.Proof.LibMatmulIdx
import proofs.«112371_j52364241273249_2_alg».proof.Proof.LibDotGeneralIdx
import proofs.«112371_j52364241273249_2_alg».proof.Proof.LibConcatCols

open scoped BigOperators

noncomputable section

namespace Cert.LibMatProd

open Idealize.ShloMosaic Idealize.ShloMosaic.ValueIdx

/-- Rows by columns: the entry at `(a, b)` is the sum over `c` of `A (a, c) · B (c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (show Fin m from i 0) c) * B (ix2 c (show Fin n from i 1))

theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product accumulated into the zero array is `mm` of its operands. -/
theorem matmul_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact Cert.LibMatmulIdx.matmul_rc_apply w prec A B a b

/-- The host's product is `mm` of its operands. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (F := Ideal) (⟨[1], [0], [0], [1], [], [], w⟩ : DotDims ⟨2, ![m, k]⟩ ⟨2, ![k, n]⟩ ⟨2, ![m, n]⟩) prec A B
      = mm A B := by
  funext i
  obtain ⟨a, b, rfl⟩ : ∃ (a : Fin m) (b : Fin n), i = ix2 a b := ⟨i 0, i 1, eq_ix2 i⟩
  exact Cert.LibDotGeneralIdx.dotGeneral_rc_apply w prec A B a b

/-- A band of rows: if row `a` of `Ab` is row `p` of `A`, then row `a` of `Ab · B` (accumulated into zero) is row `p`
    of `A · B`. -/
theorem matmul_band_apply {r m k n : ℕ}
    (w : DotDims.WF ⟨2, ![r, k]⟩ ⟨2, ![k, n]⟩ ⟨2, ![r, n]⟩ [1] [0] [0] [1] [] [])
    (prec : Option ContractPrecision) (Ab : FVec Ideal ⟨2, ![r, k]⟩ .f32) (A : (⟨2, ![m, k]⟩ : Shape).Idx → EReal)
    (B : FVec Ideal ⟨2, ![k, n]⟩ .f32) (a : Fin r) (p : Fin m) (b : Fin n)
    (hrow : ∀ c : Fin k, Ab (ix2 a c) = A (ix2 p c)) :
    FloatOps.matmul (⟨[1], [0], [0], [1], [], [], w⟩ : DotDims ⟨2, ![r, k]⟩ ⟨2, ![k, n]⟩ ⟨2, ![r, n]⟩) prec Ab B
        (constant (F := Ideal) ⟨2, ![r, n]⟩ .f32 0x00000000#32) (ix2 a b) = mm A B (ix2 p b) := by
  rw [Cert.LibMatmulIdx.matmul_rc_apply w prec Ab B a b, mm_apply]
  exact Finset.sum_congr rfl fun c _ => by rw [hrow c]

/-- A column of a product only reads that column of the right operand: if column `b'` of `B'` is column `b` of `B`,
    then column `b'` of `A · B'` is column `b` of `A · B`. -/
theorem mm_col_congr {m k n n' : ℕ} (A : (⟨2, ![m, k]⟩ : Shape).Idx → EReal)
    (B : (⟨2, ![k, n]⟩ : Shape).Idx → EReal) (B' : (⟨2, ![k, n']⟩ : Shape).Idx → EReal) (a : Fin m) (b : Fin n) (b' : Fin n')
    (hcol : ∀ c : Fin k, B' (ix2 c b') = B (ix2 c b)) :
    mm A B' (ix2 a b') = mm A B (ix2 a b) := by
  rw [mm_apply, mm_apply]
  exact Finset.sum_congr rfl fun c _ => by rw [hcol c]

/-- Against two matrices side by side, a column inside the left piece is that column of the product with the left piece. -/
theorem mm_concat_left {m k n₁ n₂ n : ℕ} (A : (⟨2, ![m, k]⟩ : Shape).Idx → EReal)
    (X : (⟨2, ![k, n₁]⟩ : Shape).Idx → EReal) (Y : (⟨2, ![k, n₂]⟩ : Shape).Idx → EReal)
    (h : Shape.Concatenates [(⟨2, ![k, n₁]⟩ : Shape), (⟨2, ![k, n₂]⟩ : Shape)] ⟨2, ![k, n]⟩ 1)
    (a : Fin m) (q : Fin n) (b : Fin n₁) (hq : q.val = b.val) :
    mm A (concatenate ⟨2, ![k, n]⟩ 1 [⟨⟨2, ![k, n₁]⟩, X⟩, ⟨⟨2, ![k, n₂]⟩, Y⟩] h) (ix2 a q) = mm A X (ix2 a b) :=
  mm_col_congr A X _ a b q fun c => Cert.LibConcatCols.concat_cols_left X Y h c q b hq

/-- Against two matrices side by side, a column past the left piece is a column of the product with the right piece. -/
theorem mm_concat_right {m k n₁ n₂ n : ℕ} (A : (⟨2, ![m, k]⟩ : Shape).Idx → EReal)
    (X : (⟨2, ![k, n₁]⟩ : Shape).Idx → EReal) (Y : (⟨2, ![k, n₂]⟩ : Shape).Idx → EReal)
    (h : Shape.Concatenates [(⟨2, ![k, n₁]⟩ : Shape), (⟨2, ![k, n₂]⟩ : Shape)] ⟨2, ![k, n]⟩ 1)
    (a : Fin m) (q : Fin n) (b : Fin n₂) (hq : q.val = n₁ + b.val) :
    mm A (concatenate ⟨2, ![k, n]⟩ 1 [⟨⟨2, ![k, n₁]⟩, X⟩, ⟨⟨2, ![k, n₂]⟩, Y⟩] h) (ix2 a q) = mm A Y (ix2 a b) :=
  mm_col_congr A Y _ a b q fun c => Cert.LibConcatCols.concat_cols_right X Y h c q b hq

/-- Multiplying on the left does not mix columns: column `b'` of `A · (X · B')` is column `b` of `A · (X · B)` when column
    `b'` of `B'` is column `b` of `B`. -/
theorem mm_mm_col_congr {m k l n n' : ℕ} (A : (⟨2, ![m, k]⟩ : Shape).Idx → EReal) (X : (⟨2, ![k, l]⟩ : Shape).Idx → EReal)
    (B : (⟨2, ![l, n]⟩ : Shape).Idx → EReal) (B' : (⟨2, ![l, n']⟩ : Shape).Idx → EReal) (a : Fin m) (b : Fin n) (b' : Fin n')
    (hcol : ∀ c : Fin l, B' (ix2 c b') = B (ix2 c b)) :
    mm A (mm X B') (ix2 a b') = mm A (mm X B) (ix2 a b) :=
  mm_col_congr A (mm X B) (mm X B') a b b' fun c => mm_col_congr X B B' c b b' hcol

end Cert.LibMatProd

end
-- ==== Proof.Product0.lean ====
/-
  Pipelined matrix product 0: the aggregated source features (40960 rows of 100) against the first layer's weights (100 by 256).

  The grid has ten points; point t stages rows 4096·t … 4096·t + 4095 of the left matrix and the whole right matrix,
  multiplies them into a zero accumulator, and writes the 4096 rows of the result back to the same band of the
  output array.  An entry of a product depends on the left operand only through its own row, so band t of the
  output is band t of the product of the two WHOLE arrays; the ten bands tile the 40960 rows, so after the last
  point the output array is that product, `mm A B (p, q) = Σ_c A (p, c) · B (c, q)`, whatever the region found in
  its operands (the entry contents `V` are a parameter).  The change of float format before the product is the
  identity on extended reals.
-/
import proofs.«112371_j52364241273249_2_alg».proof.Proof.Gen.KernelIdeal.Frame
import Idealize.ShloMosaic.Lib.Pipeline.Value
import Idealize.ShloMosaic.Lib.ValueIdx
import Idealize.ShloMosaic.PureOps.Ideal.Laws
import proofs.«112371_j52364241273249_2_alg».proof.Proof.LibMatmulIdx
import proofs.«112371_j52364241273249_2_alg».proof.Proof.LibMatProd

set_option maxRecDepth 16384

noncomputable section

open scoped BigOperators

namespace Cert.KernelIdeal.Product0

open Idealize.ShloMosaic Idealize.ShloMosaic.TcCoe Idealize.ShloMosaic.ValueIdx Idealize.SL.Sem
open Idealize.ShloMosaic.Pipeline (Dat Cfg Window)
open Cert.KernelIdeal Cert.KernelIdeal.Facts₀ Cert.KernelIdeal.Gen Cert.LibMatProd

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left and the output windows move down one band per point, the right
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at a local entry `y`, when local row `y 0` of the left block is row `i 0` of a matrix `A`: the
    entry `i` of the product of `A` with the right block. -/
theorem pay_apply (x0 : Vec Ideal S4096x100 .f32) (x1 : Vec Ideal S100x256 .f32) (A : S40960x100.Idx → EReal)
    (y : S4096x256.Idx) (i : S40960x256.Idx) (hcol : (i 1).val = (y 1).val)
    (hrow : ∀ cc : Fin 100, x0 (ix2 (y 0) cc) = A (ix2 (i 0) cc)) :
    k0_pay1 (F := Ideal) x0 x1 y = mm A x1 i := by
  obtain ⟨a, b, rfl⟩ : ∃ (a : Fin 4096) (b : Fin 256), y = ix2 a b := ⟨y 0, y 1, eq_ix2 y⟩
  obtain ⟨p, q, rfl⟩ : ∃ (p : Fin 40960) (q : Fin 256), i = ix2 p q := ⟨i 0, i 1, eq_ix2 i⟩
  obtain rfl : q = b := Fin.ext hcol
  unfold k0_pay1
  refine (Cert.LibMatmulIdx.matmul_rc_apply Facts₀.dot_S4096x100_S100x256_S4096x256_1_0_0_1_n_n_wf none _ _ a q).trans ?_
  rw [mm_apply]
  refine Finset.sum_congr rfl fun cc _ => ?_
  simp only [truncf_apply, shapeCast_self]
  exact congrArg (· * _) (hrow cc)

/-- The right window's block at any point is the whole right array. -/
theorem right_whole (c : Dev nD) (t : Fin cfg0.N) :
    iblk0 V c 1 t = (V c main_arg3 : S100x256.Idx → EReal) := by
  obtain ⟨e0, e1, e2, e3, e4, e5⟩ := idx_facts t
  funext y
  show V c main_arg3 (((cfg0.win 1).blk t).view.emb y) = V c main_arg3 y
  refine congrArg _ (funext fun a => Fin.ext ?_)
  match a with
  | ⟨0, _⟩ => show win0_1.index t (0 : Fin 2) * 100 + 1 * (y 0).val = (y 0).val; omega
  | ⟨1, _⟩ => show win0_1.index t (1 : Fin 2) * 256 + 1 * (y 1).val = (y 1).val; omega

/-- The product of the two arrays as the region finds them. -/
def whole (c : Dev nD) : S40960x256.Idx → EReal :=
  mm (V c main_v41 : S40960x100.Idx → EReal) (V c main_arg3 : S100x256.Idx → EReal)

/-- WHAT POINT `t` WRITES BACK is band `t` of the product of the whole arrays. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S4096x100) hz, View.ld_unit_zero (S := S100x256) hz]
  obtain ⟨e0, e1, e2, e3, e4, e5⟩ := idx_facts t
  funext j
  refine (pay_apply (iblk0 V c 0 t) (iblk0 V c 1 t) (V c main_v41 : S40960x100.Idx → EReal) j
    (((cfg0.win 2).blk t).view.emb j) ?_ ?_).trans ?_
  · show win0_2.index t (1 : Fin 2) * 256 + 1 * (j 1).val = (j 1).val
    omega
  · intro cc
    show V c main_v41 (((cfg0.win 0).blk t).view.emb (ix2 (j 0) cc)) = V c main_v41 (ix2 ((((cfg0.win 2).blk t).view.emb j) 0) cc)
    refine congrArg _ (funext fun a => Fin.ext ?_)
    match a with
    | ⟨0, _⟩ =>
      show win0_0.index t (0 : Fin 2) * 4096 + 1 * (j 0).val = win0_2.index t (0 : Fin 2) * 4096 + 1 * (j 0).val
      omega
    | ⟨1, _⟩ =>
      show win0_0.index t (1 : Fin 2) * 100 + 1 * cc.val = cc.val
      omega
  · rw [right_whole V c t]
    rfl

/-- An index of the output array is in point `t`'s band iff each coordinate is in the band's range on its axis. -/
theorem mem_blk (t : Fin cfg0.N) (i : S40960x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v42).slice (win0_2.rect t)).set ↔ _
  rw [View.set_slice_whole, Rect.mem_set_unit]
  exact Iff.rfl

/-- The ten bands tile the output array: row `p` lies in the band of point `p / 4096`. -/
theorem cover (i : S40960x256.Idx) :
    ∃ t : Fin cfg0.N, (cfg0.win 2).flush t = true ∧ i ∈ ((cfg0.win 2).blk t).view.set := by
  have hi0 : (i 0).val < 40960 := (i 0).isLt
  have hi1 : (i 1).val < 256 := (i 1).isLt
  have hN : cfg0.N = 10 := N_0
  obtain ⟨e0, e1, e2, e3, e4, e5⟩ := idx_facts ⟨(i 0).val / 4096, by omega⟩
  refine ⟨⟨(i 0).val / 4096, by omega⟩, flush0_2 _, ?_⟩
  rw [mem_blk]
  intro a
  match a with
  | ⟨0, _⟩ =>
    show win0_2.index ⟨(i 0).val / 4096, _⟩ (0 : Fin 2) * 4096 ≤ (i 0).val
      ∧ (i 0).val < win0_2.index ⟨(i 0).val / 4096, _⟩ (0 : Fin 2) * 4096 + 4096
    rw [e4]
    show (i 0).val / 4096 * 4096 ≤ (i 0).val ∧ (i 0).val < (i 0).val / 4096 * 4096 + 4096
    omega
  | ⟨1, _⟩ =>
    show win0_2.index ⟨(i 0).val / 4096, _⟩ (1 : Fin 2) * 256 ≤ (i 1).val
      ∧ (i 1).val < win0_2.index ⟨(i 0).val / 4096, _⟩ (1 : Fin 2) * 256 + 256
    rw [e5]
    omega

/-- THE OUTPUT ARRAY after the region: the product of its two input arrays as the region found them. -/
theorem final (c : Dev nD) : (dat0 V c).arrAt 2 cfg0.N = whole V c :=
  (dat0 V c).arrAt_eq_of_cover 2 (whole V c) (fun t _ => flushed_eq V c t) (cover)

end Cert.KernelIdeal.Product0

end
-- ==== Proof.Product1.lean ====
/-
  Pipelined matrix product 1: the hidden features (40960 rows of 256) against the second layer's weights padded to 128 columns (256 by 128).

  The grid has ten points; point t stages rows 4096·t … 4096·t + 4095 of the left matrix and the whole right matrix,
  multiplies them into a zero accumulator, and writes the 4096 rows of the result back to the same band of the
  output array.  An entry of a product depends on the left operand only through its own row, so band t of the
  output is band t of the product of the two WHOLE arrays; the ten bands tile the 40960 rows, so after the last
  point the output array is that product, `mm A B (p, q) = Σ_c A (p, c) · B (c, q)`, whatever the region found in
  its operands (the entry contents `V` are a parameter).  The change of float format before the product is the
  identity on extended reals.
-/
import proofs.«112371_j52364241273249_2_alg».proof.Proof.Gen.KernelIdeal.Frame
import Idealize.ShloMosaic.Lib.Pipeline.Value
import Idealize.ShloMosaic.Lib.ValueIdx
import Idealize.ShloMosaic.PureOps.Ideal.Laws
import proofs.«112371_j52364241273249_2_alg».proof.Proof.LibMatmulIdx
import proofs.«112371_j52364241273249_2_alg».proof.Proof.LibMatProd

set_option maxRecDepth 16384

noncomputable section

open scoped BigOperators

namespace Cert.KernelIdeal.Product1

open Idealize.ShloMosaic Idealize.ShloMosaic.TcCoe Idealize.ShloMosaic.ValueIdx Idealize.SL.Sem
open Idealize.ShloMosaic.Pipeline (Dat Cfg Window)
open Cert.KernelIdeal Cert.KernelIdeal.Facts₀ Cert.KernelIdeal.Gen Cert.LibMatProd

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left and the output windows move down one band per point, the right
    window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's result at a local entry `y`, when local row `y 0` of the left block is row `i 0` of a matrix `A`: the
    entry `i` of the product of `A` with the right block. -/
theorem pay_apply (x0 : Vec Ideal S4096x256 .f32) (x1 : Vec Ideal S256x128 .f32) (A : S40960x256.Idx → EReal)
    (y : S4096x128.Idx) (i : S40960x128.Idx) (hcol : (i 1).val = (y 1).val)
    (hrow : ∀ cc : Fin 256, x0 (ix2 (y 0) cc) = A (ix2 (i 0) cc)) :
    k1_pay1 (F := Ideal) x0 x1 y = mm A x1 i := by
  obtain ⟨a, b, rfl⟩ : ∃ (a : Fin 4096) (b : Fin 128), y = ix2 a b := ⟨y 0, y 1, eq_ix2 y⟩
  obtain ⟨p, q, rfl⟩ : ∃ (p : Fin 40960) (q : Fin 128), i = ix2 p q := ⟨i 0, i 1, eq_ix2 i⟩
  obtain rfl : q = b := Fin.ext hcol
  unfold k1_pay1
  refine (Cert.LibMatmulIdx.matmul_rc_apply Facts₀.dot_S4096x256_S256x128_S4096x128_1_0_0_1_n_n_wf none _ _ a q).trans ?_
  rw [mm_apply]
  refine Finset.sum_congr rfl fun cc _ => ?_
  simp only [truncf_apply, shapeCast_self]
  exact congrArg (· * _) (hrow cc)

/-- The right window's block at any point is the whole right array. -/
theorem right_whole (c : Dev nD) (t : Fin cfg1.N) :
    iblk1 V c 1 t = (V c main_v47 : S256x128.Idx → EReal) := by
  obtain ⟨e0, e1, e2, e3, e4, e5⟩ := idx_facts t
  funext y
  show V c main_v47 (((cfg1.win 1).blk t).view.emb y) = V c main_v47 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 128 + 1 * (y 1).val = (y 1).val; omega

/-- The product of the two arrays as the region finds them. -/
def whole (c : Dev nD) : S40960x128.Idx → EReal :=
  mm (V c main_v46 : S40960x256.Idx → EReal) (V c main_v47 : S256x128.Idx → EReal)

/-- WHAT POINT `t` WRITES BACK is band `t` of the product of the whole arrays. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S4096x256) hz, View.ld_unit_zero (S := S256x128) hz]
  obtain ⟨e0, e1, e2, e3, e4, e5⟩ := idx_facts t
  funext j
  refine (pay_apply (iblk1 V c 0 t) (iblk1 V c 1 t) (V c main_v46 : S40960x256.Idx → EReal) j
    (((cfg1.win 2).blk t).view.emb j) ?_ ?_).trans ?_
  · show win1_2.index t (1 : Fin 2) * 128 + 1 * (j 1).val = (j 1).val
    omega
  · intro cc
    show V c main_v46 (((cfg1.win 0).blk t).view.emb (ix2 (j 0) cc)) = V c main_v46 (ix2 ((((cfg1.win 2).blk t).view.emb j) 0) cc)
    refine congrArg _ (funext fun a => Fin.ext ?_)
    match a with
    | ⟨0, _⟩ =>
      show win1_0.index t (0 : Fin 2) * 4096 + 1 * (j 0).val = win1_2.index t (0 : Fin 2) * 4096 + 1 * (j 0).val
      omega
    | ⟨1, _⟩ =>
      show win1_0.index t (1 : Fin 2) * 256 + 1 * cc.val = cc.val
      omega
  · rw [right_whole V c t]
    rfl

/-- An index of the output array is in point `t`'s band iff each coordinate is in the band's range on its axis. -/
theorem mem_blk (t : Fin cfg1.N) (i : S40960x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v48).slice (win1_2.rect t)).set ↔ _
  rw [View.set_slice_whole, Rect.mem_set_unit]
  exact Iff.rfl

/-- The ten bands tile the output array: row `p` lies in the band of point `p / 4096`. -/
theorem cover (i : S40960x128.Idx) :
    ∃ t : Fin cfg1.N, (cfg1.win 2).flush t = true ∧ i ∈ ((cfg1.win 2).blk t).view.set := by
  have hi0 : (i 0).val < 40960 := (i 0).isLt
  have hi1 : (i 1).val < 128 := (i 1).isLt
  have hN : cfg1.N = 10 := N_1
  obtain ⟨e0, e1, e2, e3, e4, e5⟩ := idx_facts ⟨(i 0).val / 4096, by omega⟩
  refine ⟨⟨(i 0).val / 4096, by omega⟩, flush1_2 _, ?_⟩
  rw [mem_blk]
  intro a
  match a with
  | ⟨0, _⟩ =>
    show win1_2.index ⟨(i 0).val / 4096, _⟩ (0 : Fin 2) * 4096 ≤ (i 0).val
      ∧ (i 0).val < win1_2.index ⟨(i 0).val / 4096, _⟩ (0 : Fin 2) * 4096 + 4096
    rw [e4]
    show (i 0).val / 4096 * 4096 ≤ (i 0).val ∧ (i 0).val < (i 0).val / 4096 * 4096 + 4096
    omega
  | ⟨1, _⟩ =>
    show win1_2.index ⟨(i 0).val / 4096, _⟩ (1 : Fin 2) * 128 ≤ (i 1).val
      ∧ (i 1).val < win1_2.index ⟨(i 0).val / 4096, _⟩ (1 : Fin 2) * 128 + 128
    rw [e5]
    omega

/-- THE OUTPUT ARRAY after the region: the product of its two input arrays as the region found them. -/
theorem final (c : Dev nD) : (dat1 V c).arrAt 2 cfg1.N = whole V c :=
  (dat1 V c).arrAt_eq_of_cover 2 (whole V c) (fun t _ => flushed_eq V c t) (cover)

end Cert.KernelIdeal.Product1

end
-- ==== Proof.KernelWalk.lean ====
/-
  What the idealized kernel computes, read off its run: the buffer contents at each boundary of the program.

  The program's frame follows every buffer from the launch memory through ten stretches of host operations and two
  pipelined matrix products (the fold `W0`, …, `W12`).  Read at the buffers that matter:
    * before the first product its left operand holds `agg0`: the source rows gathered by `row0`, each scaled by its
      edge weight, added up by `col0` into zeros (aggregation BEFORE the projection), and its right operand the first
      layer's weights;
    * the first product leaves their matrix product;
    * before the second product its left operand holds that product with the bias row added and clamped below at zero,
      and its right operand the second layer's weights with 81 columns of padding on the right;
    * the second product leaves their matrix product, of which the first 47 columns are kept;
    * the last stretch aggregates those projected rows as the reference does.
  An argument's buffer is written by nothing, so it reads the launch memory at every boundary.
  Which operation feeds which does not depend on the float values, so the stretches are read at any `F`; only the two
  products are read at the extended reals.
-/
import proofs.«112371_j52364241273249_2_alg».proof.Proof.Gen.KernelIdeal.Frame
import Idealize.ShloMosaic.Lib.StableHlo.Run
import proofs.«112371_j52364241273249_2_alg».proof.Proof.KStages
import proofs.«112371_j52364241273249_2_alg».proof.Proof.Product0
import proofs.«112371_j52364241273249_2_alg».proof.Proof.Product1
import proofs.«112371_j52364241273249_2_alg».proof.Proof.LibMatProd

set_option maxRecDepth 16384
set_option maxHeartbeats 4000000

noncomputable section

namespace Cert.KernelIdeal.Walk

open Idealize.ShloMosaic Idealize.ShloMosaic.TcCoe Idealize.SL.Sem Idealize.ShloMosaic.StableHlo
open Cert.KernelIdeal Cert.KernelIdeal.Gen
open Cert.KernelIdeal.KStages
open Cert.LibMatProd (mm)

/-! # The stretches of host operations, at any float values -/

section AnyValues

variable {F : FTy → Type} [FloatOps F]
variable (m : (ℓ : Loc nD τ sig) → Buf (Elt F) ℓ) (ρ : Dev nD → PrngReg) (c : Dev nD)

/-! ## Up to the first product -/

theorem W3_arg2 : W3 m ρ c (Proc.devRef .tc main_arg2) = (m ((c : Thread nD τ).loc main_arg2)) := by
  show after hostOps0_2 (after hostOps0_1 (after hostOps0 (W0 m ρ c))) (Proc.devRef .tc main_arg2) = _
  after_results_simp <;> rfl
theorem W3_arg3 : W3 m ρ c (Proc.devRef .tc main_arg3) = (m ((c : Thread nD τ).loc main_arg3)) := by
  show after hostOps0_2 (after hostOps0_1 (after hostOps0 (W0 m ρ c))) (Proc.devRef .tc main_arg3) = _
  after_results_simp <;> rfl
theorem W3_arg4 : W3 m ρ c (Proc.devRef .tc main_arg4) = (m ((c : Thread nD τ).loc main_arg4)) := by
  show after hostOps0_2 (after hostOps0_1 (after hostOps0 (W0 m ρ c))) (Proc.devRef .tc main_arg4) = _
  after_results_simp <;> rfl
theorem W3_arg5 : W3 m ρ c (Proc.devRef .tc main_arg5) = (m ((c : Thread nD τ).loc main_arg5)) := by
  show after hostOps0_2 (after hostOps0_1 (after hostOps0 (W0 m ρ c))) (Proc.devRef .tc main_arg5) = _
  after_results_simp <;> rfl
theorem W3_arg6 : W3 m ρ c (Proc.devRef .tc main_arg6) = (m ((c : Thread nD τ).loc main_arg6)) := by
  show after hostOps0_2 (after hostOps0_1 (after hostOps0 (W0 m ρ c))) (Proc.devRef .tc main_arg6) = _
  after_results_simp <;> rfl

/-- The first product's left operand as the region finds it. -/
theorem W3_agg : W3 m ρ c (Proc.devRef .tc main_v41) = agg0 (m ((c : Thread nD τ).loc main_arg1)) (m ((c : Thread nD τ).loc main_arg0)) := by
  show after hostOps0_2 (after hostOps0_1 (after hostOps0 (W0 m ρ c))) (Proc.devRef .tc main_v41) = _
  after_results_simp
  unfold agg0 nrm0 dis0 deg0 col0 row0 ncol0
  rfl

/-! ## After the first product, up to the second -/

theorem W4_arg2 : W4 m ρ c (Proc.devRef .tc main_arg2) = (m ((c : Thread nD τ).loc main_arg2)) := (W4_of_ne m ρ c main_arg2 (by decide)).trans (W3_arg2 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)

theorem W8_arg2 : W8 m ρ c (Proc.devRef .tc main_arg2) = (m ((c : Thread nD τ).loc main_arg2)) := by
  show after hostOps1_3 (after hostOps1_2 (after hostOps1_1 (after hostOps1 (W4 m ρ c)))) (Proc.devRef .tc main_arg2) = _
  after_results_simp
  exact W4_arg2 m ρ c
theorem W8_arg6 : W8 m ρ c (Proc.devRef .tc main_arg6) = (m ((c : Thread nD τ).loc main_arg6)) := by
  show after hostOps1_3 (after hostOps1_2 (after hostOps1_1 (after hostOps1 (W4 m ρ c)))) (Proc.devRef .tc main_arg6) = _
  after_results_simp
  exact W4_arg6 m ρ c

/-- The second product's left operand: the first product's output with the bias row added, clamped below at zero. -/
theorem W8_act : W8 m ρ c (Proc.devRef .tc main_v46) = act0 (W4 m ρ c (Proc.devRef .tc main_v42)) (m ((c : Thread nD τ).loc main_arg4)) := by
  show after hostOps1_3 (after hostOps1_2 (after hostOps1_1 (after hostOps1 (W4 m ρ c)))) (Proc.devRef .tc main_v46) = _
  after_results_simp
  rw [W4_arg4 m ρ c]
  rfl

/-- The second product's right operand: the padded weights. -/
theorem W8_pad : W8 m ρ c (Proc.devRef .tc main_v47) = padW (m ((c : Thread nD τ).loc main_arg5)) := by
  show after hostOps1_3 (after hostOps1_2 (after hostOps1_1 (after hostOps1 (W4 m ρ c)))) (Proc.devRef .tc main_v47) = _
  after_results_simp
  rw [W4_arg5 m ρ c]
  rfl

/-! ## After the second product -/

theorem W9_arg2 : W9 m ρ c (Proc.devRef .tc main_arg2) = (m ((c : Thread nD τ).loc main_arg2)) := (W9_of_ne m ρ c main_arg2 (by decide)).trans (W8_arg2 m ρ c)
theorem W9_arg6 : W9 m ρ c (Proc.devRef .tc main_arg6) = (m ((c : Thread nD τ).loc main_arg6)) := (W9_of_ne m ρ c main_arg6 (by decide)).trans (W8_arg6 m ρ c)

/-- The result buffer: the last aggregation of the first 47 columns of the second product's output. -/
theorem W12_tail : W12 m ρ c (Proc.devRef .tc main_v94)
    = out1 (m ((c : Thread nD τ).loc main_arg2)) (cut47 (W9 m ρ c (Proc.devRef .tc main_v48))) (m ((c : Thread nD τ).loc main_arg6)) := by
  show after hostOps2_2 (after hostOps2_1 (after hostOps2 (W9 m ρ c))) (Proc.devRef .tc main_v94) = _
  after_results_simp
  rw [W9_arg2 m ρ c, W9_arg6 m ρ c]
  unfold out1 nrm1 dis1 deg1 col1 row1 ncol1 cut47
  rfl

end AnyValues

/-! # The two products, at the extended reals -/

/-- The kernel, composed. -/
def kerOut (x : FVec Ideal S409600x100 .f32) (ei0 : IVec S2x655360 32) (ei1 : IVec S2x65536 32) (W0 : FVec Ideal S100x256 .f32)
    (b0 : FVec Ideal S256 .f32) (W1 : FVec Ideal S256x47 .f32) (b1 : FVec Ideal S47 .f32) : FVec Ideal S4096x47 .f32 :=
  out1 ei1
    (cut47 (mm (m := 40960) (k := 256) (n := 128)
      (act0 (mm (m := 40960) (k := 100) (n := 256) (agg0 ei0 x) W0) b0) (padW W1))) b1

variable (m : (ℓ : Loc nD τ sig) → Buf (Elt Ideal) ℓ) (ρ : Dev nD → PrngReg) (c : Dev nD)

/-- The first product's output array: the aggregate times the first layer's weights. -/
theorem W4_prod : W4 m ρ c (Proc.devRef .tc main_v42)
    = mm (m := 40960) (k := 100) (n := 256) (agg0 (F := Ideal) (m ((c : Thread nD τ).loc main_arg1)) (m ((c : Thread nD τ).loc main_arg0))) (m ((c : Thread nD τ).loc main_arg3)) := by
  refine (W4_arr m ρ c (2 : Fin cfg0.W)).trans ?_
  rw [Cert.KernelIdeal.Product0.final (V3 m ρ) c]
  unfold Cert.KernelIdeal.Product0.whole
  exact congrArg₂ (mm (m := 40960) (k := 100) (n := 256)) (W3_agg m ρ c) (W3_arg3 m ρ c)

/-- The second product's output array. -/
theorem W9_prod : W9 m ρ c (Proc.devRef .tc main_v48)
    = mm (m := 40960) (k := 256) (n := 128)
        (act0 (F := Ideal) (mm (m := 40960) (k := 100) (n := 256) (agg0 (F := Ideal) (m ((c : Thread nD τ).loc main_arg1)) (m ((c : Thread nD τ).loc main_arg0))) (m ((c : Thread nD τ).loc main_arg3))) (m ((c : Thread nD τ).loc main_arg4))) (padW (F := Ideal) (m ((c : Thread nD τ).loc main_arg5))) := by
  refine (W9_arr m ρ c (2 : Fin cfg1.W)).trans ?_
  rw [Cert.KernelIdeal.Product1.final (V8 m ρ) c]
  unfold Cert.KernelIdeal.Product1.whole
  refine congrArg₂ (mm (m := 40960) (k := 256) (n := 128)) ((W8_act m ρ c).trans ?_) (W8_pad m ρ c)
  rw [W4_prod m ρ c]

/-- THE KERNEL'S RESULT BUFFER at the end of the run. -/
theorem W12_out : W12 m ρ c (Proc.devRef .tc main_v94)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W12_tail m ρ c, W9_prod m ρ c]
  rfl

end Cert.KernelIdeal.Walk

end
-- ==== Proof.LibRealOfTest.lean ====
/-
  General lemmas: a passed test "every |entry| < +inf" makes every entry of an array a real number.

  A finiteness precondition is printed, per float argument, as: take absolute values, compare each with the
  scalar +inf (the word 0x7F800000) spread over the argument's shape, and reduce the one-bit results by "and"
  into a single bit. Over the extended reals |v| = max v (−v) is +inf exactly at the two infinities, so the
  comparison holds at an entry exactly when the entry is a real number; and a reduction by "and" into a single
  result that is 1 had a 1 at every index. Any shape, any reduced axes.
-/
import Idealize.ShloMosaic.Lib.ReduceAll
import Idealize.ShloMosaic.Lib.ValueIdx
import Idealize.ShloMosaic.PureOps.Ideal

noncomputable section

namespace Cert.LibRealOfTest

open Idealize.ShloMosaic Idealize.ShloMosaic.ValueIdx

/-- The scalar shape has one index. -/
instance : Subsingleton (⟨0, ![]⟩ : Shape).Idx := ⟨fun a b => funext fun d => d.elim0⟩

/-- The bound of the test is +inf. -/
theorem posInf_f32 : Ideal.ofBits .f32 0x7F800000#32 = (⊤ : EReal) := by simp [Ideal.ofBits, Ideal.ieee]

/-- An extended real whose absolute value is below +inf is a real number. -/
theorem real_of_test (v : EReal) (h : Ideal.cmp .olt (max v (-v)) (Ideal.ofBits .f32 0x7F800000#32) = 1#1) :
    ∃ r : ℝ, v = r := by
  rw [posInf_f32] at h
  induction v using EReal.rec with
  | bot => simp [Ideal.cmp] at h
  | coe r => exact ⟨r, rfl⟩
  | top => simp [Ideal.cmp] at h

/-- One argument's test, passed, makes every entry of that argument real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hpos : 0 < (⟨0, ![]⟩ : Shape).numel)
    (h : Host.reduce IntOp.andi
      (cmpf .olt (Host.absf (F := Ideal) a) (broadcastInDim s ![] hb (constant (F := Ideal) ⟨0, ![]⟩ .f32 0x7F800000#32)))
      (constantI ⟨0, ![]⟩ 1 1#1) hr hpos ix0 = 1#1) (i : s.Idx) : ∃ r : ℝ, a i = r :=
  real_of_test (a i) (Host.reduce_andi_all _ _ hr hpos ix0 h i)

end Cert.LibRealOfTest

end
-- ==== Proof.FiniteInputs.lean ====
/-
  What the precondition gives: every entry of the source features and of the first layer's weights is a real number.

  The precondition is one bit: the conjunction, over the five float arguments, of "every entry's absolute value is below
  +∞".  Read at the extended reals each conjunct says that no entry of that argument is +∞ or −∞.  Only the first two
  conjuncts are needed (the source features and the first layer's weights): they are the arrays over which the
  aggregation is exchanged with the projection.
-/
import Idealize.ShloMosaic.Lib.ValueIdx
import Idealize.ShloMosaic.Lib.Affine
import proofs.«112371_j52364241273249_2_alg».proof.Proof.LibRealOfTest
import proofs.«112371_j52364241273249_2_alg».proof.Pre_finite_inputs
import proofs.«112371_j52364241273249_2_alg».proof.Proof.Gen.Pre_finite_inputs

noncomputable section

namespace Cert.FiniteInputs

open Idealize.ShloMosaic Idealize.ShloMosaic.ValueIdx
open Cert.Pre_finite_inputs Cert.Pre_finite_inputs.Facts

theorem real_entries (x : FVec Ideal S409600x100 .f32) (e0 : IVec S2x655360 32) (e1 : IVec S2x65536 32)
    (W0 : FVec Ideal S100x256 .f32) (b0 : FVec Ideal S256 .f32) (W1 : FVec Ideal S256x47 .f32) (b1 : FVec Ideal S47 .f32)
    (h : fn (F := Ideal) x e0 e1 W0 b0 W1 b1 = fun _ => 1#1) :
    (∀ i, ∃ r : ℝ, x i = (r : EReal)) ∧ (∀ i, ∃ r : ℝ, W0 i = (r : EReal)) := by
  have h0 := congrFun h ix0
  dsimp only [fn, fn_part1] at h0
  simp only [andi, IntOp.andi_eq_one] at h0
  obtain ⟨⟨⟨⟨hx, hW⟩, _⟩, _⟩, _⟩ := h0
  exact ⟨Cert.LibRealOfTest.real_of_all x bcast_S_S409600x100 reducesTo_S409600x100_S_d0_1 h_S_ hx,
    Cert.LibRealOfTest.real_of_all W0 bcast_S_S100x256 reducesTo_S100x256_S_d0_1 h_S_ hW⟩

end Cert.FiniteInputs

end
-- ==== Proof.StagesAgree.lean ====
/-
  The kernel program's stages, read at the extended reals, are the shared stages.

  The two programs were printed separately, so each has its own records of the same shapes, the same dimension numbers
  and the same side conditions; a stage written with one program's records is the same function as the stage written
  with the other's.  The comparison is made one stage at a time, each stage given that its predecessors agree.
-/
import proofs.«112371_j52364241273249_2_alg».proof.Proof.KStages
import proofs.«112371_j52364241273249_2_alg».proof.Proof.Stages

noncomputable section

namespace Cert.StagesAgree

open Idealize.ShloMosaic
open Cert.KernelIdeal (S2x655360 S2x65536 S40960x256 S256 S40960x47 S47)

/-! ## Layer 0 -/

theorem col0_eq (ei : IVec S2x655360 32) : Cert.KernelIdeal.KStages.col0 ei = Cert.Stages.col0 ei := rfl
theorem row0_eq (ei : IVec S2x655360 32) : Cert.KernelIdeal.KStages.row0 ei = Cert.Stages.row0 ei := rfl
theorem ncol0_eq (ei : IVec S2x655360 32) : Cert.KernelIdeal.KStages.ncol0 ei = Cert.Stages.ncol0 ei := rfl
theorem deg0_eq (ei : IVec S2x655360 32) : Cert.KernelIdeal.KStages.deg0 (F := Ideal) ei = Cert.Stages.deg0 ei := rfl
theorem dis0_eq (ei : IVec S2x655360 32) : Cert.KernelIdeal.KStages.dis0 (F := Ideal) ei = Cert.Stages.dis0 ei := by
  unfold Cert.KernelIdeal.KStages.dis0 Cert.Stages.dis0
  rw [deg0_eq]
theorem nrm0_eq (ei : IVec S2x655360 32) : Cert.KernelIdeal.KStages.nrm0 (F := Ideal) ei = Cert.Stages.nrm0 ei := by
  unfold Cert.KernelIdeal.KStages.nrm0 Cert.Stages.nrm0
  rw [dis0_eq, row0_eq, ncol0_eq]
  rfl
theorem act0_eq (pre : FVec Ideal S40960x256 .f32) (b0 : FVec Ideal S256 .f32) : Cert.KernelIdeal.KStages.act0 pre b0 = Cert.Stages.act0 pre b0 := rfl

/-! ## Layer 1 -/

theorem col1_eq (ei : IVec S2x65536 32) : Cert.KernelIdeal.KStages.col1 ei = Cert.Stages.col1 ei := rfl
theorem row1_eq (ei : IVec S2x65536 32) : Cert.KernelIdeal.KStages.row1 ei = Cert.Stages.row1 ei := rfl
theorem ncol1_eq (ei : IVec S2x65536 32) : Cert.KernelIdeal.KStages.ncol1 ei = Cert.Stages.ncol1 ei := rfl
theorem deg1_eq (ei : IVec S2x65536 32) : Cert.KernelIdeal.KStages.deg1 (F := Ideal) ei = Cert.Stages.deg1 ei := rfl
theorem dis1_eq (ei : IVec S2x65536 32) : Cert.KernelIdeal.KStages.dis1 (F := Ideal) ei = Cert.Stages.dis1 ei := by
  unfold Cert.KernelIdeal.KStages.dis1 Cert.Stages.dis1
  rw [deg1_eq]
theorem nrm1_eq (ei : IVec S2x65536 32) : Cert.KernelIdeal.KStages.nrm1 (F := Ideal) ei = Cert.Stages.nrm1 ei := by
  unfold Cert.KernelIdeal.KStages.nrm1 Cert.Stages.nrm1
  rw [dis1_eq, row1_eq, ncol1_eq]
  rfl
theorem out1_eq (ei : IVec S2x65536 32) (h1 : FVec Ideal S40960x47 .f32) (b1 : FVec Ideal S47 .f32) :
    Cert.KernelIdeal.KStages.out1 ei h1 b1 = Cert.Stages.out1 ei h1 b1 := by
  unfold Cert.KernelIdeal.KStages.out1 Cert.Stages.out1
  rw [col1_eq, row1_eq, nrm1_eq]
  rfl

end Cert.StagesAgree

end
-- ==== Proof.LibSegmentRows.lean ====
/-
  Rows of a matrix picked by a table of positions, and rows added into the rows a table names, read at one entry, for any
  extents and ANY table (no range is assumed of its words).

  A gather of rows clamps each position into the operand: the word is read signed, a negative word names row 0 and a word
  past the end names the last row (`clampRow`). The entry at `(j, c)` is the operand's entry in that row, column `c`.

  An accumulating scatter of rows drops an update row whose position falls outside the operand and adds the others: over
  the extended reals the entry at `(e, c)` is the operand's entry plus the sum, over the update rows `r` whose word read
  signed IS `e`, of the update's entry `(r, c)`. The same for a vector of updates added into a vector. Both sums run over
  the same set of rows, `{r | word r = e}`, which is what lets a sum of rows and a count of rows be compared.
  The dimension numbers are written out literally, so a program's own record of them unifies with the statements by
  unfolding.
-/
import Idealize.ShloMosaic.Lib.ValueIdx
import Idealize.ShloMosaic.PureOps.Ideal.Laws

open scoped BigOperators

noncomputable section

namespace Cert.LibSegmentRows

open Idealize.ShloMosaic Idealize.ShloMosaic.ValueIdx

/-! ## Gather of rows, any table -/

/-- The dimension numbers of a gather of rows: operand `[N, C]`, start indices `[n, 1]`, result `[n, C]`; each slice is
    one whole row. -/
abbrev gatherRowsDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row of an `N`-row operand a start word names once clamped: the word read signed, below zero row `0`, past the
    end row `N - 1`. -/
def clampRow {w : Nat} (N : Nat) (hN : 0 < N) (b : BitVec w) : Fin N :=
  ⟨min b.toInt.toNat (N - 1), by have := Nat.min_le_right b.toInt.toNat (N - 1); omega⟩

/-- THE GATHER OF ROWS READ AT `(j, c)`, whatever the table holds: the operand's entry in the clamped row the table's
    `j`-th word names, column `c`. -/
theorem gather_rows_clamp_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (j : Fin n) (c : Fin C) :
    Host.gather (gatherRowsDims N C n wf) x idx (ix2 j c) = x (ix2 (clampRow N hN (idx (ix2 j (0 : Fin 1)))) c) := by
  unfold Host.gather
  congr 1
  funext a
  refine Fin.ext ?_
  show (gatherRowsDims N C n wf).start (ix2 j c) idx a + (gatherRowsDims N C n wf).batchCoord (ix2 j c) a
    + (gatherRowsDims N C n wf).offCoord (ix2 j c) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 2) ∈ (gatherRowsDims N C n wf).startIndexMap from List.mem_singleton.mpr rfl)]
    have hsi : (gatherRowsDims N C n wf).siIdx (ix2 j c) ⟨List.idxOf (⟨0, h0⟩ : Fin 2) (gatherRowsDims N C n wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, h1⟩ =>
    have hs : (gatherRowsDims N C n wf).start (ix2 j c) idx ⟨1, h1⟩ = 0 := by
      unfold GatherDims.start
      rw [dif_neg (fun h => absurd (congrArg Fin.val (List.mem_singleton.mp h)) Nat.one_ne_zero)]
    rw [hs, Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

/-! ## Where an update of a scatter of rows lands -/

/-- The dimension numbers of a scatter of rows: operand `[E, C]`, scatter indices `[n, 1]`, updates `[n, C]`; each
    update window is one whole row. -/
abbrev scatterRowsDims (E C n : Nat)
    (wf : ScatterDims.WF ⟨2, ![E, C]⟩ ⟨2, ![n, 1]⟩ ⟨2, ![n, C]⟩ [1] [0] [0] 1) :
    ScatterDims ⟨2, ![E, C]⟩ ⟨2, ![n, 1]⟩ ⟨2, ![n, C]⟩ where
  updateWindowDims := [1]
  insertedWindowDims := [0]
  scatterDimsToOperandDims := [0]
  indexVectorDim := 1
  wf := wf

/-- The dimension numbers of a scatter of entries into a vector: operand `[E]`, scatter indices `[n, 1]`, updates `[n]`. -/
abbrev scatterVecDims (E n : Nat)
    (wf : ScatterDims.WF ⟨1, ![E]⟩ ⟨2, ![n, 1]⟩ ⟨1, ![n]⟩ [] [0] [0] 1) :
    ScatterDims ⟨1, ![E]⟩ ⟨2, ![n, 1]⟩ ⟨1, ![n]⟩ where
  updateWindowDims := []
  insertedWindowDims := [0]
  scatterDimsToOperandDims := [0]
  indexVectorDim := 1
  wf := wf

/-- The update `(r, c)` of a scatter of rows lands at `(e, c')` exactly when the table's `r`-th word, read signed, is
    `e` and the columns agree. -/
theorem scatterRows_resultIdx_iff {E C n w : Nat}
    (wf : ScatterDims.WF ⟨2, ![E, C]⟩ ⟨2, ![n, 1]⟩ ⟨2, ![n, C]⟩ [1] [0] [0] 1)
    (idx : IVec ⟨2, ![n, 1]⟩ w) (r : Fin n) (c : Fin C) (e : Fin E) (c' : Fin C) :
    (scatterRowsDims E C n wf).resultIdx? (ix2 r c) idx = some (ix2 e c')
      ↔ (idx (ix2 r (0 : Fin 1))).toInt = (e.val : Int) ∧ c = c' := by
  have hsw0 : (scatterRowsDims E C n wf).start (ix2 r c) idx (0 : Fin 2) + (scatterRowsDims E C n wf).window (ix2 r c) (0 : Fin 2)
      = (idx (ix2 r (0 : Fin 1))).toInt := by
    have hs : (scatterRowsDims E C n wf).start (ix2 r c) idx (0 : Fin 2) = (idx (ix2 r (0 : Fin 1))).toInt := by
      unfold ScatterDims.start
      rw [dif_pos (show (0 : Fin 2) ∈ (scatterRowsDims E C n wf).scatterDimsToOperandDims from List.mem_singleton.mpr rfl)]
      have hsi : (scatterRowsDims E C n wf).siIdx (ix2 r c)
          ⟨List.idxOf (0 : Fin 2) (scatterRowsDims E C n wf).scatterDimsToOperandDims,
            List.idxOf_lt_length_iff.2 (List.mem_singleton.mpr rfl)⟩ = ix2 r (0 : Fin 1) := by
        funext b; refine Fin.ext ?_
        match b with
        | ⟨0, _⟩ => rfl
        | ⟨1, _⟩ => rfl
      rw [hsi]
    have hw : (scatterRowsDims E C n wf).window (ix2 r c) (0 : Fin 2) = 0 := by
      unfold ScatterDims.window
      rw [dif_neg (show (0 : Fin 2) ∉ (scatterRowsDims E C n wf).sKept from
        fun h => absurd (congrArg Fin.val (List.mem_singleton.mp h)) Nat.zero_ne_one)]
    rw [hs, hw]; simp
  have hsw1 : (scatterRowsDims E C n wf).start (ix2 r c) idx (1 : Fin 2) + (scatterRowsDims E C n wf).window (ix2 r c) (1 : Fin 2)
      = (c.val : Int) := by
    have hs : (scatterRowsDims E C n wf).start (ix2 r c) idx (1 : Fin 2) = 0 := by
      unfold ScatterDims.start
      rw [dif_neg (fun h => absurd (congrArg Fin.val (List.mem_singleton.mp h)) Nat.one_ne_zero)]
    have hw : (scatterRowsDims E C n wf).window (ix2 r c) (1 : Fin 2) = c.val := by
      unfold ScatterDims.window
      rw [dif_pos (show (1 : Fin 2) ∈ (scatterRowsDims E C n wf).sKept from List.mem_singleton.mpr rfl)]
      rfl
    rw [hs, hw, Int.zero_add]
  unfold ScatterDims.resultIdx?
  split
  · rename_i h
    constructor
    · intro he
      have he' := Option.some.inj he
      have e0 : ((scatterRowsDims E C n wf).start (ix2 r c) idx (0 : Fin 2) + (scatterRowsDims E C n wf).window (ix2 r c) (0 : Fin 2)).toNat
          = e.val := congrArg Fin.val (congrFun he' 0)
      have e1 : ((scatterRowsDims E C n wf).start (ix2 r c) idx (1 : Fin 2) + (scatterRowsDims E C n wf).window (ix2 r c) (1 : Fin 2)).toNat
          = c'.val := congrArg Fin.val (congrFun he' 1)
      have h0 := (h 0).1
      rw [hsw0] at e0 h0
      rw [hsw1, Int.toNat_natCast] at e1
      exact ⟨by omega, Fin.ext e1⟩
    · rintro ⟨hz, rfl⟩
      congr 1
      funext a
      refine Fin.ext ?_
      match a with
      | ⟨0, _⟩ =>
        show ((scatterRowsDims E C n wf).start (ix2 r c) idx (0 : Fin 2) + (scatterRowsDims E C n wf).window (ix2 r c) (0 : Fin 2)).toNat = e.val
        rw [hsw0, hz, Int.toNat_natCast]
      | ⟨1, _⟩ =>
        show ((scatterRowsDims E C n wf).start (ix2 r c) idx (1 : Fin 2) + (scatterRowsDims E C n wf).window (ix2 r c) (1 : Fin 2)).toNat = c.val
        rw [hsw1, Int.toNat_natCast]
  · rename_i h
    constructor
    · intro he; exact absurd he (by simp)
    · rintro ⟨hz, rfl⟩
      exfalso
      apply h
      intro a
      match a with
      | ⟨0, _⟩ =>
        show 0 ≤ (scatterRowsDims E C n wf).start (ix2 r c) idx (0 : Fin 2) + (scatterRowsDims E C n wf).window (ix2 r c) (0 : Fin 2)
          ∧ (scatterRowsDims E C n wf).start (ix2 r c) idx (0 : Fin 2) + (scatterRowsDims E C n wf).window (ix2 r c) (0 : Fin 2) < (E : Int)
        rw [hsw0, hz]
        exact ⟨Int.natCast_nonneg _, Int.ofNat_lt.mpr e.isLt⟩
      | ⟨1, _⟩ =>
        show 0 ≤ (scatterRowsDims E C n wf).start (ix2 r c) idx (1 : Fin 2) + (scatterRowsDims E C n wf).window (ix2 r c) (1 : Fin 2)
          ∧ (scatterRowsDims E C n wf).start (ix2 r c) idx (1 : Fin 2) + (scatterRowsDims E C n wf).window (ix2 r c) (1 : Fin 2) < (C : Int)
        rw [hsw1]
        exact ⟨Int.natCast_nonneg _, Int.ofNat_lt.mpr c.isLt⟩

/-- The update `r` of a scatter into a vector lands at `e` exactly when the table's `r`-th word, read signed, is `e`. -/
theorem scatterVec_resultIdx_iff {E n w : Nat}
    (wf : ScatterDims.WF ⟨1, ![E]⟩ ⟨2, ![n, 1]⟩ ⟨1, ![n]⟩ [] [0] [0] 1)
    (idx : IVec ⟨2, ![n, 1]⟩ w) (r : Fin n) (e : Fin E) :
    (scatterVecDims E n wf).resultIdx? (ix1 r) idx = some (ix1 e)
      ↔ (idx (ix2 r (0 : Fin 1))).toInt = (e.val : Int) := by
  have hsw0 : (scatterVecDims E n wf).start (ix1 r) idx (0 : Fin 1) + (scatterVecDims E n wf).window (ix1 r) (0 : Fin 1)
      = (idx (ix2 r (0 : Fin 1))).toInt := by
    have hs : (scatterVecDims E n wf).start (ix1 r) idx (0 : Fin 1) = (idx (ix2 r (0 : Fin 1))).toInt := by
      unfold ScatterDims.start
      rw [dif_pos (show (0 : Fin 1) ∈ (scatterVecDims E n wf).scatterDimsToOperandDims from List.mem_singleton.mpr rfl)]
      have hsi : (scatterVecDims E n wf).siIdx (ix1 r)
          ⟨List.idxOf (0 : Fin 1) (scatterVecDims E n wf).scatterDimsToOperandDims,
            List.idxOf_lt_length_iff.2 (List.mem_singleton.mpr rfl)⟩ = ix2 r (0 : Fin 1) := by
        funext b; refine Fin.ext ?_
        match b with
        | ⟨0, _⟩ => rfl
        | ⟨1, _⟩ => rfl
      rw [hsi]
    have hw : (scatterVecDims E n wf).window (ix1 r) (0 : Fin 1) = 0 := by
      unfold ScatterDims.window
      rw [dif_neg (show (0 : Fin 1) ∉ (scatterVecDims E n wf).sKept from List.not_mem_nil)]
    rw [hs, hw]; simp
  unfold ScatterDims.resultIdx?
  split
  · rename_i h
    constructor
    · intro he
      have he' := Option.some.inj he
      have e0 : ((scatterVecDims E n wf).start (ix1 r) idx (0 : Fin 1) + (scatterVecDims E n wf).window (ix1 r) (0 : Fin 1)).toNat
          = e.val := congrArg Fin.val (congrFun he' 0)
      have h0 := (h 0).1
      rw [hsw0] at e0 h0
      omega
    · intro hz
      congr 1
      funext a
      refine Fin.ext ?_
      match a with
      | ⟨0, _⟩ =>
        show ((scatterVecDims E n wf).start (ix1 r) idx (0 : Fin 1) + (scatterVecDims E n wf).window (ix1 r) (0 : Fin 1)).toNat = e.val
        rw [hsw0, hz, Int.toNat_natCast]
  · rename_i h
    constructor
    · intro he; exact absurd he (by simp)
    · intro hz
      exfalso
      apply h
      intro a
      match a with
      | ⟨0, _⟩ =>
        show 0 ≤ (scatterVecDims E n wf).start (ix1 r) idx (0 : Fin 1) + (scatterVecDims E n wf).window (ix1 r) (0 : Fin 1)
          ∧ (scatterVecDims E n wf).start (ix1 r) idx (0 : Fin 1) + (scatterVecDims E n wf).window (ix1 r) (0 : Fin 1) < (E : Int)
        rw [hsw0, hz]
        exact ⟨Int.natCast_nonneg _, Int.ofNat_lt.mpr e.isLt⟩

/-! ## The accumulating scatters read at one entry, over the extended reals -/

/-- The update rows whose word, read signed, is `e`: the rows a scatter adds into row `e`. -/
def rowsAt {E n w : Nat} (idx : IVec ⟨2, ![n, 1]⟩ w) (e : Fin E) : Finset (Fin n) :=
  Finset.univ.filter fun r => (idx (ix2 r (0 : Fin 1))).toInt = (e.val : Int)

/-- ROWS ADDED INTO ROWS, READ AT `(e, c)`: the operand's entry plus the sum over the update rows that name row `e` of
    their entries in column `c`. -/
theorem scatterAdd_rows_apply {E C n w : Nat} {φ : FTy}
    (wf : ScatterDims.WF ⟨2, ![E, C]⟩ ⟨2, ![n, 1]⟩ ⟨2, ![n, C]⟩ [1] [0] [0] 1)
    (x : FVec Ideal ⟨2, ![E, C]⟩ φ) (idx : IVec ⟨2, ![n, 1]⟩ w) (upd : FVec Ideal ⟨2, ![n, C]⟩ φ) (e : Fin E) (c : Fin C) :
    Host.scatterAdd (F := Ideal) (scatterRowsDims E C n wf) x idx upd (ix2 e c)
      = x (ix2 e c) + ∑ r ∈ rowsAt idx e, upd (ix2 r c) := by
  unfold Host.scatterAdd
  rw [Ideal.hostScatterAdd_def]
  unfold Ideal.hostScatterAdd
  refine congrArg (x (ix2 e c) + ·) ?_
  refine Finset.sum_nbij' (fun j => j 0) (fun r => ix2 r c) ?_ ?_ ?_ ?_ ?_
  · intro j hj
    obtain ⟨r, c0, rfl⟩ : ∃ a b, j = ix2 a b := ⟨_, _, eq_ix2 j⟩
    have h := (scatterRows_resultIdx_iff wf idx r c0 e c).mp (Finset.mem_filter.mp hj).2
    exact Finset.mem_filter.mpr ⟨Finset.mem_univ _, h.1⟩
  · intro r hr
    exact Finset.mem_filter.mpr ⟨Finset.mem_univ _,
      (scatterRows_resultIdx_iff wf idx r c e c).mpr ⟨(Finset.mem_filter.mp hr).2, rfl⟩⟩
  · intro j hj
    obtain ⟨r, c0, rfl⟩ : ∃ a b, j = ix2 a b := ⟨_, _, eq_ix2 j⟩
    have h := (scatterRows_resultIdx_iff wf idx r c0 e c).mp (Finset.mem_filter.mp hj).2
    show ix2 r c = ix2 r c0
    rw [h.2]
  · intro r _; rfl
  · intro j hj
    obtain ⟨r, c0, rfl⟩ : ∃ a b, j = ix2 a b := ⟨_, _, eq_ix2 j⟩
    have h := (scatterRows_resultIdx_iff wf idx r c0 e c).mp (Finset.mem_filter.mp hj).2
    show upd (ix2 r c0) = upd (ix2 r c)
    rw [h.2]

/-- ENTRIES ADDED INTO A VECTOR, READ AT `e`: the operand's entry plus the sum over the updates that name `e`. -/
theorem scatterAdd_vec_apply {E n w : Nat} {φ : FTy}
    (wf : ScatterDims.WF ⟨1, ![E]⟩ ⟨2, ![n, 1]⟩ ⟨1, ![n]⟩ [] [0] [0] 1)
    (x : FVec Ideal ⟨1, ![E]⟩ φ) (idx : IVec ⟨2, ![n, 1]⟩ w) (upd : FVec Ideal ⟨1, ![n]⟩ φ) (e : Fin E) :
    Host.scatterAdd (F := Ideal) (scatterVecDims E n wf) x idx upd (ix1 e)
      = x (ix1 e) + ∑ r ∈ rowsAt idx e, upd (ix1 r) := by
  unfold Host.scatterAdd
  rw [Ideal.hostScatterAdd_def]
  unfold Ideal.hostScatterAdd
  refine congrArg (x (ix1 e) + ·) ?_
  refine Finset.sum_nbij' (fun j => j 0) (fun r => ix1 r) ?_ ?_ ?_ ?_ ?_
  · intro j hj
    obtain ⟨r, rfl⟩ : ∃ a, j = ix1 a := ⟨_, eq_ix1 j⟩
    exact Finset.mem_filter.mpr ⟨Finset.mem_univ _, (scatterVec_resultIdx_iff wf idx r e).mp (Finset.mem_filter.mp hj).2⟩
  · intro r hr
    exact Finset.mem_filter.mpr ⟨Finset.mem_univ _, (scatterVec_resultIdx_iff wf idx r e).mpr (Finset.mem_filter.mp hr).2⟩
  · intro j _
    obtain ⟨r, rfl⟩ : ∃ a, j = ix1 a := ⟨_, eq_ix1 j⟩
    rfl
  · intro r _; rfl
  · intro j _
    obtain ⟨r, rfl⟩ : ∃ a, j = ix1 a := ⟨_, eq_ix1 j⟩
    rfl

end Cert.LibSegmentRows

end
-- ==== Proof.LibAggregateProject.lean ====
/-
  Aggregating neighbours and then projecting equals projecting and then aggregating.

  A graph-convolution layer forms, for each target row e and output column d,
      sum over edges r into e of  (sum over k of x[src r, k] * W[k, d]) * nu r
  (project every source row by W, then gather, scale by the edge weight nu and add up), while the
  re-ordered layer forms
      sum over k of  (sum over edges r into e of x[src r, k] * nu r) * W[k, d]
  (gather, scale and add up the narrow rows first, then project once).  Over the real numbers the two are
  one double sum read in two orders: distribute the factor nu r, respectively W[k, d], over the inner
  sum and exchange the two finite sums.  On the extended reals distributing a factor over a sum is only
  valid when no term is infinite, so the statement asks that every entry of x and of W and every edge
  weight be a real number; it is stated for the host's gather of rows, accumulating scatter of rows
  into zeros, and matrix product, each read at an entry.
-/
import Idealize.ShloMosaic.Lib.ValueIdx
import Idealize.ShloMosaic.PureOps.Ideal.Laws
import proofs.«112371_j52364241273249_2_alg».proof.Proof.LibSegmentRows
import proofs.«112371_j52364241273249_2_alg».proof.Proof.LibDotGeneralIdx

noncomputable section

open scoped BigOperators

namespace Cert.LibAggregateProject

open Idealize.ShloMosaic Idealize.ShloMosaic.ValueIdx Cert.LibSegmentRows

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The double sum over edges and contracted columns, read edge-first and column-first. -/
theorem swap_real {R K : Type} [Fintype K] (S : Finset R) (x : R → K → ℝ) (w : K → ℝ) (n : R → ℝ) :
    ∑ r ∈ S, (∑ k, x r k * w k) * n r = ∑ k, (∑ r ∈ S, x r k * n r) * w k :=
  calc ∑ r ∈ S, (∑ k, x r k * w k) * n r
      = ∑ r ∈ S, ∑ k, x r k * w k * n r := by simp only [Finset.sum_mul]
    _ = ∑ k, ∑ r ∈ S, x r k * w k * n r := Finset.sum_comm
    _ = ∑ k, (∑ r ∈ S, x r k * n r) * w k := by
        refine Finset.sum_congr rfl fun k _ => ?_
        rw [Finset.sum_mul]
        exact Finset.sum_congr rfl fun r _ => by ring

/-- The same on the extended reals, every factor a real number, each aggregate started from zero. -/
theorem swap_ereal {R K : Type} [Fintype K] (S : Finset R) (X : R → K → EReal) (W : K → EReal) (N : R → EReal)
    (hX : ∀ r k, ∃ a : ℝ, X r k = a) (hW : ∀ k, ∃ a : ℝ, W k = a) (hN : ∀ r, ∃ a : ℝ, N r = a) :
    (0 : EReal) + ∑ r ∈ S, (∑ k, X r k * W k) * N r = ∑ k, ((0 : EReal) + ∑ r ∈ S, X r k * N r) * W k := by
  choose x hx using hX
  choose w hw using hW
  choose n hn using hN
  simp only [hx, hw, hn, zero_add, ← EReal.coe_mul, ← coe_sum]
  exact congrArg _ (swap_real S x w n)

/-- PROJECT-THEN-AGGREGATE IS AGGREGATE-THEN-PROJECT, entry by entry: for a source matrix `x` of `N` rows and `C`
    columns, weights `W` of `C` by `D`, a table `ri` of source rows and a table `ci` of target rows (one word per
    edge, any words: a source row is clamped into range, an edge whose target is out of range adds nothing), and edge
    weights spread along the rows of `nC` and `nD`. -/
theorem project_aggregate_apply {N C D E n w : Nat} (hN : 0 < N)
    (gC : GatherDims.WF ⟨2, ![N, C]⟩ ⟨2, ![n, 1]⟩ ⟨2, ![n, C]⟩ [1] [0] [] [0] [] 1 ![1, C])
    (gD : GatherDims.WF ⟨2, ![N, D]⟩ ⟨2, ![n, 1]⟩ ⟨2, ![n, D]⟩ [1] [0] [] [0] [] 1 ![1, D])
    (sC : ScatterDims.WF ⟨2, ![E, C]⟩ ⟨2, ![n, 1]⟩ ⟨2, ![n, C]⟩ [1] [0] [0] 1)
    (sD : ScatterDims.WF ⟨2, ![E, D]⟩ ⟨2, ![n, 1]⟩ ⟨2, ![n, D]⟩ [1] [0] [0] 1)
    (dw : DotDims.WF ⟨2, ![N, C]⟩ ⟨2, ![C, D]⟩ ⟨2, ![N, D]⟩ [1] [0] [0] [1] [] [])
    (x : FVec Ideal ⟨2, ![N, C]⟩ .f32) (W : FVec Ideal ⟨2, ![C, D]⟩ .f32) (ri ci : IVec ⟨2, ![n, 1]⟩ w)
    (nC : FVec Ideal ⟨2, ![n, C]⟩ .f32) (nD : FVec Ideal ⟨2, ![n, D]⟩ .f32) (nu : Fin n → EReal)
    (hnC : ∀ r c, nC (ix2 r c) = nu r) (hnD : ∀ r d, nD (ix2 r d) = nu r)
    (zC : FVec Ideal ⟨2, ![E, C]⟩ .f32) (zD : FVec Ideal ⟨2, ![E, D]⟩ .f32) (hzC : ∀ i, zC i = 0) (hzD : ∀ i, zD i = 0)
    (hx : ∀ i, ∃ a : ℝ, x i = a) (hW : ∀ i, ∃ a : ℝ, W i = a) (hnu : ∀ r, ∃ a : ℝ, nu r = a)
    (e : Fin E) (d : Fin D) :
    Host.scatterAdd (F := Ideal) (scatterRowsDims E D n sD) zD ci
        (mulf (Host.gather (gatherRowsDims N D n gD)
          (Host.dotGeneral (F := Ideal) (⟨[1], [0], [0], [1], [], [], dw⟩ : DotDims ⟨2, ![N, C]⟩ ⟨2, ![C, D]⟩ ⟨2, ![N, D]⟩) none x W) ri) nD)
        (ix2 e d)
      = ∑ k : Fin C, Host.scatterAdd (F := Ideal) (scatterRowsDims E C n sC) zC ci
          (mulf (Host.gather (gatherRowsDims N C n gC) x ri) nC) (ix2 e k) * W (ix2 k d) := by
  simp only [scatterAdd_rows_apply, mulf_apply, gather_rows_clamp_apply hN, hnC, hnD, hzC, hzD]
  simp only [Cert.LibDotGeneralIdx.dotGeneral_rc_apply dw none x W]
  exact swap_ereal (rowsAt ci e) (fun r k => x (ix2 (clampRow N hN (ri (ix2 r (0 : Fin 1)))) k)) (fun k => W (ix2 k d)) nu
    (fun r k => hx _) (fun k => hW _) hnu

end Cert.LibAggregateProject

end
-- ==== Proof.LibGatherScatterIdx.lean ====
/-
  `stablehlo.gather` and `stablehlo.scatter` read at one index, for any extents, in the three layouts that picking
  rows, columns or entries of an array by a table of positions lowers to: the start (or scatter) indices are an
  `[n, 1]` array, one position per row. A gather clamps each start position into the operand; a scatter drops an update
  whose position falls outside. When the table holds in-range positions `k j` (read signed), the gather is the operand
  at position `k j`, and the scatter with the body "take the update" holds the update's entry at the positions `k j` hits
  (for an injective `k`, so that no two updates meet) and the operand's entry everywhere else. The dimension numbers are
  written out literally, so a program's own record of them unifies with the statements by unfolding.
-/
import Idealize.ShloMosaic.Lib.ValueIdx

noncomputable section

namespace Cert.LibGatherScatterIdx

open Idealize.ShloMosaic Idealize.ShloMosaic.ValueIdx

/-! ## Gather along axis 1 (`x[:, idx]`) -/

/-- The dimension numbers of a gather of columns: operand `[R, N]`, start indices `[n, 1]`, result `[R, n]`; each slice
    is one whole column. -/
abbrev gatherColsDims (R N n : Nat)
    (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- THE GATHER OF COLUMNS READ AT `(r, j)`: when the table's `j`-th word, read signed, is the in-range position `k j`,
    the result's entry is the operand's entry in row `r`, column `k j`. -/
theorem gather_cols_apply {α : Type} {R N n w : Nat}
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ w)
    (k : Fin n → Fin N) (hk : ∀ j : Fin n, (idx (ix2 j (0 : Fin 1))).toInt = ((k j).val : Int)) (r : Fin R) (j : Fin n) :
    Host.gather (gatherColsDims R N n wf) x idx (ix2 r j) = x (ix2 r (k j)) := by
  unfold Host.gather
  congr 1
  funext a
  refine Fin.ext ?_
  show (gatherColsDims R N n wf).start (ix2 r j) idx a + (gatherColsDims R N n wf).batchCoord (ix2 r j) a
    + (gatherColsDims R N n wf).offCoord (ix2 r j) a = _
  rw [GatherDims.batchCoord_eq_zero _ _ _ List.not_mem_nil, Nat.add_zero]
  match a with
  | ⟨0, h0⟩ =>
    have hs : (gatherColsDims R N n wf).start (ix2 r j) idx ⟨0, h0⟩ = 0 := by
      unfold GatherDims.start
      rw [dif_neg (fun h => absurd (congrArg Fin.val (List.mem_singleton.mp h)) Nat.zero_ne_one)]
    rw [hs, Nat.zero_add]
    unfold GatherDims.offCoord
    rw [dif_pos ((GatherDims.mem_sKept _ _).mpr
      ⟨fun h => absurd (congrArg Fin.val (List.mem_singleton.mp h)) Nat.zero_ne_one, List.not_mem_nil⟩)]
    rfl
  | ⟨1, h1⟩ =>
    rw [GatherDims.offCoord_eq_zero _ _ _ (fun h => ((GatherDims.mem_sKept _ _).mp h).1 (List.mem_singleton.mpr rfl)),
      Nat.add_zero]
    unfold GatherDims.start
    rw [dif_pos (show (⟨1, h1⟩ : Fin 2) ∈ (gatherColsDims R N n wf).startIndexMap from List.mem_singleton.mpr rfl)]
    have hsi : (gatherColsDims R N n wf).siIdx (ix2 r j) ⟨List.idxOf (⟨1, h1⟩ : Fin 2) (gatherColsDims R N n wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi, hk j, Int.toNat_natCast]
    exact Nat.min_eq_left (by have := (k j).isLt; show (k j).val ≤ N - 1; omega)

/-! ## Gather along axis 0 of a matrix (`jnp.take(x, idx, axis=0)`) -/

/-- The dimension numbers of a gather of rows: operand `[N, C]`, start indices `[n, 1]`, result `[n, C]`; each slice is
    one whole row. -/
abbrev gatherRowsDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(j, c)`: when the table's `j`-th word, read signed, is the in-range position `k j`,
    the result's entry is the operand's entry in row `k j`, column `c`. -/
theorem gather_rows_apply {α : Type} {N C n w : Nat}
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w)
    (k : Fin n → Fin N) (hk : ∀ j : Fin n, (idx (ix2 j (0 : Fin 1))).toInt = ((k j).val : Int)) (j : Fin n) (c : Fin C) :
    Host.gather (gatherRowsDims N C n wf) x idx (ix2 j c) = x (ix2 (k j) c) := by
  unfold Host.gather
  congr 1
  funext a
  refine Fin.ext ?_
  show (gatherRowsDims N C n wf).start (ix2 j c) idx a + (gatherRowsDims N C n wf).batchCoord (ix2 j c) a
    + (gatherRowsDims N C n wf).offCoord (ix2 j c) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 2) ∈ (gatherRowsDims N C n wf).startIndexMap from List.mem_singleton.mpr rfl)]
    have hsi : (gatherRowsDims N C n wf).siIdx (ix2 j c) ⟨List.idxOf (⟨0, h0⟩ : Fin 2) (gatherRowsDims N C n wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi, hk j, Int.toNat_natCast]
    exact Nat.min_eq_left (by have := (k j).isLt; show (k j).val ≤ N - 1; omega)
  | ⟨1, h1⟩ =>
    have hs : (gatherRowsDims N C n wf).start (ix2 j c) idx ⟨1, h1⟩ = 0 := by
      unfold GatherDims.start
      rw [dif_neg (fun h => absurd (congrArg Fin.val (List.mem_singleton.mp h)) Nat.one_ne_zero)]
    rw [hs, Nat.zero_add]
    unfold GatherDims.offCoord
    rw [dif_pos ((GatherDims.mem_sKept _ _).mpr
      ⟨fun h => absurd (congrArg Fin.val (List.mem_singleton.mp h)) Nat.one_ne_zero, List.not_mem_nil⟩)]
    rfl

/-! ## Gather of a vector -/

/-- The dimension numbers of a gather of entries of a vector: operand `[N]`, start indices `[n, 1]`, result `[n]`; each
    slice is one entry. -/
abbrev gatherVecDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE GATHER OF A VECTOR READ AT `j`: when the table's `j`-th word, read signed, is the in-range position `k j`, the
    result's entry is the operand's entry at `k j`. -/
theorem gather_vec_apply {α : Type} {N n w : Nat}
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w)
    (k : Fin n → Fin N) (hk : ∀ j : Fin n, (idx (ix2 j (0 : Fin 1))).toInt = ((k j).val : Int)) (j : Fin n) :
    Host.gather (gatherVecDims N n wf) x idx (ix1 j) = x (ix1 (k j)) := by
  unfold Host.gather
  congr 1
  funext a
  obtain rfl : a = 0 := Subsingleton.elim _ _
  refine Fin.ext ?_
  show (gatherVecDims N n wf).start (ix1 j) idx 0 + (gatherVecDims N n wf).batchCoord (ix1 j) 0
    + (gatherVecDims N n wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N n wf).startIndexMap from List.mem_singleton.mpr rfl)]
  have hsi : (gatherVecDims N n wf).siIdx (ix1 j) ⟨List.idxOf (0 : Fin 1) (gatherVecDims N n wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi, hk j, Int.toNat_natCast]
  exact Nat.min_eq_left (by have := (k j).isLt; show (k j).val ≤ N - 1; omega)

/-! ## Scatter: the fold over the updates, read at one index

`Host.scatter` folds one step per update, in row-major order of the updates, over the operand. Read at one index `i₀`
of the operand, only the updates that land at `i₀` matter: if none does the entry is the operand's, and if exactly one
does and the body is "take the update" the entry is that update's. -/

section Fold
variable {s si u : Shape} {α : Type} {w : Nat}

/-- One step of the scatter's fold: the update of row-major number `m` replaces the entry at its result index by the
    body's value, or is dropped when that index falls outside the operand. -/
def scatterStep (d : ScatterDims s si u) (f : α → α → α) (idx : IVec si w) (upd : u.Idx → α)
    (r : s.Idx → α) (m : Fin u.numel) : s.Idx → α :=
  match d.resultIdx? (u.rowMajor.symm m) idx with
  | some i => fun i' => if i' = i then f (r i) (upd (u.rowMajor.symm m)) else r i'
  | none => r

/-- The scatter is the left fold of that step over the updates in row-major order. -/
theorem scatter_eq_foldl (d : ScatterDims s si u) (f : α → α → α) (x : s.Idx → α) (idx : IVec si w) (upd : u.Idx → α) :
    Host.scatter d f x idx upd = (List.finRange u.numel).foldl (scatterStep d f idx upd) x := rfl

/-- A step whose update does not land at `i₀` leaves the entry at `i₀`. -/
theorem scatterStep_of_ne (d : ScatterDims s si u) (f : α → α → α) (idx : IVec si w) (upd : u.Idx → α)
    (r : s.Idx → α) (m : Fin u.numel) (i₀ : s.Idx) (h : d.resultIdx? (u.rowMajor.symm m) idx ≠ some i₀) :
    scatterStep d f idx upd r m i₀ = r i₀ := by
  unfold scatterStep
  generalize d.resultIdx? (u.rowMajor.symm m) idx = o at h
  cases o with
  | none => rfl
  | some i =>
    show (if i₀ = i then f (r i) (upd (u.rowMajor.symm m)) else r i₀) = r i₀
    exact if_neg (fun e => h (by rw [e]))

/-- A step whose update lands at `i₀` puts the body's value there. -/
theorem scatterStep_of_eq (d : ScatterDims s si u) (f : α → α → α) (idx : IVec si w) (upd : u.Idx → α)
    (r : s.Idx → α) (m : Fin u.numel) (i₀ : s.Idx) (h : d.resultIdx? (u.rowMajor.symm m) idx = some i₀) :
    scatterStep d f idx upd r m i₀ = f (r i₀) (upd (u.rowMajor.symm m)) := by
  unfold scatterStep
  rw [h]
  show (if i₀ = i₀ then f (r i₀) (upd (u.rowMajor.symm m)) else r i₀) = _
  exact if_pos rfl

/-- Folding over updates none of which lands at `i₀` leaves the entry at `i₀`. -/
theorem foldl_scatterStep_miss (d : ScatterDims s si u) (f : α → α → α) (idx : IVec si w) (upd : u.Idx → α)
    (i₀ : s.Idx) (l : List (Fin u.numel)) (x : s.Idx → α)
    (h : ∀ m ∈ l, d.resultIdx? (u.rowMajor.symm m) idx ≠ some i₀) :
    l.foldl (scatterStep d f idx upd) x i₀ = x i₀ := by
  induction l generalizing x with
  | nil => rfl
  | cons m l ih =>
    rw [List.foldl_cons, ih _ (fun m' hm' => h m' (List.mem_cons_of_mem _ hm')),
      scatterStep_of_ne d f idx upd x m i₀ (h m List.mem_cons_self)]

/-- Folding the body "take the update" over a list without repeats in which exactly the update number `m₀` lands at
    `i₀` leaves that update's entry at `i₀`. -/
theorem foldl_scatterStep_set_hit (d : ScatterDims s si u) (idx : IVec si w) (upd : u.Idx → α)
    (i₀ : s.Idx) (m₀ : Fin u.numel) (h₀ : d.resultIdx? (u.rowMajor.symm m₀) idx = some i₀)
    (l : List (Fin u.numel)) (hl : l.Nodup) (hm₀ : m₀ ∈ l)
    (huniq : ∀ m ∈ l, d.resultIdx? (u.rowMajor.symm m) idx = some i₀ → m = m₀) (x : s.Idx → α) :
    l.foldl (scatterStep d (fun _ b => b) idx upd) x i₀ = upd (u.rowMajor.symm m₀) := by
  induction l generalizing x with
  | nil => exact absurd hm₀ List.not_mem_nil
  | cons m l ih =>
    rw [List.foldl_cons]
    have hnd := List.nodup_cons.mp hl
    by_cases hmm : m = m₀
    · subst hmm
      rw [foldl_scatterStep_miss d _ idx upd i₀ l _
          (fun m' hm' e => hnd.1 (huniq m' (List.mem_cons_of_mem _ hm') e ▸ hm')),
        scatterStep_of_eq d _ idx upd x m i₀ h₀]
    · have hmem : m₀ ∈ l := by
        rcases List.mem_cons.mp hm₀ with e | e
        · exact absurd e.symm hmm
        · exact e
      exact ih hnd.2 hmem (fun m' hm' => huniq m' (List.mem_cons_of_mem _ hm')) _

/-- A SCATTER READ WHERE NO UPDATE LANDS: the operand's entry. -/
theorem scatter_apply_miss (d : ScatterDims s si u) (f : α → α → α) (x : s.Idx → α) (idx : IVec si w) (upd : u.Idx → α)
    (i₀ : s.Idx) (h : ∀ j : u.Idx, d.resultIdx? j idx ≠ some i₀) :
    Host.scatter d f x idx upd i₀ = x i₀ := by
  rw [scatter_eq_foldl]
  exact foldl_scatterStep_miss d f idx upd i₀ _ x (fun m _ => h _)

/-- A SCATTER WITH THE BODY "TAKE THE UPDATE" READ WHERE EXACTLY ONE UPDATE LANDS: that update's entry. -/
theorem scatter_set_apply_hit (d : ScatterDims s si u) (x : s.Idx → α) (idx : IVec si w) (upd : u.Idx → α)
    (i₀ : s.Idx) (j₀ : u.Idx) (h₀ : d.resultIdx? j₀ idx = some i₀)
    (huniq : ∀ j : u.Idx, d.resultIdx? j idx = some i₀ → j = j₀) :
    Host.scatter d (fun _ b => b) x idx upd i₀ = upd j₀ := by
  rw [scatter_eq_foldl]
  have h := foldl_scatterStep_set_hit d idx upd i₀ (u.rowMajor j₀) (by rw [Equiv.symm_apply_apply]; exact h₀)
    (List.finRange u.numel) (List.nodup_finRange _) (List.mem_finRange _)
    (fun m _ e => by rw [← huniq _ e, Equiv.apply_symm_apply]) x
  rw [h, Equiv.symm_apply_apply]

end Fold

/-! ## Scatter along axis 1 with the body "take the update" (`x.at[:, idx].set(u)`) -/

/-- The dimension numbers of a scatter of columns: operand `[R, N]`, scatter indices `[n, 1]`, updates `[R, n]`; each
    update window is one whole column. -/
abbrev scatterColsDims (R N n : Nat)
    (wf : ScatterDims.WF ⟨2, ![R, N]⟩ ⟨2, ![n, 1]⟩ ⟨2, ![R, n]⟩ [0] [1] [1] 1) :
    ScatterDims ⟨2, ![R, N]⟩ ⟨2, ![n, 1]⟩ ⟨2, ![R, n]⟩ where
  updateWindowDims := [0]
  insertedWindowDims := [1]
  scatterDimsToOperandDims := [1]
  indexVectorDim := 1
  wf := wf

/-- Where the update `(r, j)` of a scatter of columns lands: row `r`, the column the table's `j`-th word names. -/
theorem scatterCols_resultIdx {R N n w : Nat} (wf : ScatterDims.WF ⟨2, ![R, N]⟩ ⟨2, ![n, 1]⟩ ⟨2, ![R, n]⟩ [0] [1] [1] 1)
    (idx : IVec ⟨2, ![n, 1]⟩ w) (k : Fin n → Fin N)
    (hk : ∀ j : Fin n, (idx (ix2 j (0 : Fin 1))).toInt = ((k j).val : Int)) (r : Fin R) (j : Fin n) :
    (scatterColsDims R N n wf).resultIdx? (ix2 r j) idx = some (ix2 r (k j)) := by
  have hsw : ∀ a : Fin 2, (scatterColsDims R N n wf).start (ix2 r j) idx a + (scatterColsDims R N n wf).window (ix2 r j) a
      = ((ix2 r (k j) a).val : Int) := by
    intro a
    match a with
    | ⟨0, h0⟩ =>
      have hs : (scatterColsDims R N n wf).start (ix2 r j) idx ⟨0, h0⟩ = 0 := by
        unfold ScatterDims.start
        rw [dif_neg (fun h => absurd (congrArg Fin.val (List.mem_singleton.mp h)) Nat.zero_ne_one)]
      have hw : (scatterColsDims R N n wf).window (ix2 r j) ⟨0, h0⟩ = r.val := by
        unfold ScatterDims.window
        rw [dif_pos (show (⟨0, h0⟩ : Fin 2) ∈ (scatterColsDims R N n wf).sKept from List.mem_singleton.mpr rfl)]
        rfl
      rw [hs, hw, Int.zero_add]
    | ⟨1, h1⟩ =>
      have hs : (scatterColsDims R N n wf).start (ix2 r j) idx ⟨1, h1⟩ = ((k j).val : Int) := by
        unfold ScatterDims.start
        rw [dif_pos (show (⟨1, h1⟩ : Fin 2) ∈ (scatterColsDims R N n wf).scatterDimsToOperandDims from
          List.mem_singleton.mpr rfl)]
        have hsi : (scatterColsDims R N n wf).siIdx (ix2 r j)
            ⟨List.idxOf (⟨1, h1⟩ : Fin 2) (scatterColsDims R N n wf).scatterDimsToOperandDims,
              List.idxOf_lt_length_iff.2 (List.mem_singleton.mpr rfl)⟩ = ix2 j (0 : Fin 1) := by
          funext b; refine Fin.ext ?_
          match b with
          | ⟨0, _⟩ => rfl
          | ⟨1, _⟩ => rfl
        rw [hsi, hk j]
      have hw : (scatterColsDims R N n wf).window (ix2 r j) ⟨1, h1⟩ = 0 := by
        unfold ScatterDims.window
        rw [dif_neg (show (⟨1, h1⟩ : Fin 2) ∉ (scatterColsDims R N n wf).sKept from
          fun h => absurd (congrArg Fin.val (List.mem_singleton.mp h)) Nat.one_ne_zero)]
      rw [hs, hw]; rfl
  unfold ScatterDims.resultIdx?
  rw [dif_pos (fun a => by
    rw [hsw a]
    exact ⟨Int.natCast_nonneg _, Int.ofNat_lt.mpr (ix2 r (k j) a).isLt⟩)]
  congr 1
  funext a
  refine Fin.ext ?_
  show ((scatterColsDims R N n wf).start (ix2 r j) idx a + (scatterColsDims R N n wf).window (ix2 r j) a).toNat = _
  rw [hsw a, Int.toNat_natCast]

/-- THE SCATTER OF COLUMNS READ AT A POSITION THE TABLE HITS: when the table's words, read signed, are the in-range
    positions `k j` and no two of them are equal, the result's entry in row `r`, column `k j` is the update's entry
    `(r, j)`. -/
theorem scatter_cols_set_hit {α : Type} {R N n w : Nat}
    (wf : ScatterDims.WF ⟨2, ![R, N]⟩ ⟨2, ![n, 1]⟩ ⟨2, ![R, n]⟩ [0] [1] [1] 1)
    (x : (⟨2, ![R, N]⟩ : Shape).Idx → α) (idx : IVec ⟨2, ![n, 1]⟩ w) (upd : (⟨2, ![R, n]⟩ : Shape).Idx → α)
    (k : Fin n → Fin N) (hk : ∀ j : Fin n, (idx (ix2 j (0 : Fin 1))).toInt = ((k j).val : Int))
    (hinj : Function.Injective k) (r : Fin R) (j : Fin n) :
    Host.scatter (scatterColsDims R N n wf) (fun _ b => b) x idx upd (ix2 r (k j)) = upd (ix2 r j) := by
  refine scatter_set_apply_hit _ x idx upd _ _ (scatterCols_resultIdx wf idx k hk r j) (fun j' e => ?_)
  obtain ⟨r', j'', rfl⟩ : ∃ a b, j' = ix2 a b := ⟨_, _, eq_ix2 j'⟩
  rw [scatterCols_resultIdx wf idx k hk r' j''] at e
  have e' := Option.some.inj e
  have e0 : r' = r := congrFun e' 0
  have e1 : k j'' = k j := congrFun e' 1
  rw [e0, hinj e1]

/-- THE SCATTER OF COLUMNS READ AT A POSITION THE TABLE MISSES: when the table's words, read signed, are the in-range
    positions `k j` and none of them is the column `c`, the result's entry in row `r`, column `c` is the operand's. -/
theorem scatter_cols_set_miss {α : Type} {R N n w : Nat}
    (wf : ScatterDims.WF ⟨2, ![R, N]⟩ ⟨2, ![n, 1]⟩ ⟨2, ![R, n]⟩ [0] [1] [1] 1)
    (x : (⟨2, ![R, N]⟩ : Shape).Idx → α) (idx : IVec ⟨2, ![n, 1]⟩ w) (upd : (⟨2, ![R, n]⟩ : Shape).Idx → α)
    (k : Fin n → Fin N) (hk : ∀ j : Fin n, (idx (ix2 j (0 : Fin 1))).toInt = ((k j).val : Int))
    (r : Fin R) (c : Fin N) (hc : ∀ j, k j ≠ c) :
    Host.scatter (scatterColsDims R N n wf) (fun _ b => b) x idx upd (ix2 r c) = x (ix2 r c) := by
  refine scatter_apply_miss _ _ x idx upd _ (fun j' e => ?_)
  obtain ⟨r', j'', rfl⟩ : ∃ a b, j' = ix2 a b := ⟨_, _, eq_ix2 j'⟩
  rw [scatterCols_resultIdx wf idx k hk r' j''] at e
  exact hc j'' (congrFun (Option.some.inj e) 1)

end Cert.LibGatherScatterIdx

end
-- ==== Proof.LibGatherVecClamp.lean ====
/-
  Entries of a vector picked by a table of positions, read at one entry, for any extents and ANY table (no range is
  assumed of its words).

  A gather of entries clamps each position into the operand: the word is read signed, a negative word names entry 0 and
  a word past the end names the last entry (`clampRow`). The result's entry at `j` is the operand's entry at the clamped
  position the table's `j`-th word names. The dimension numbers are those of `gatherVecDims`, written out literally, so a
  program's own record of them unifies with the statement by unfolding.
-/
import Idealize.ShloMosaic.Lib.ValueIdx
import proofs.«112371_j52364241273249_2_alg».proof.Proof.LibGatherScatterIdx
import proofs.«112371_j52364241273249_2_alg».proof.Proof.LibSegmentRows

noncomputable section

namespace Cert.LibGatherVecClamp

open Idealize.ShloMosaic Idealize.ShloMosaic.ValueIdx
open Cert.LibGatherScatterIdx (gatherVecDims)
open Cert.LibSegmentRows (clampRow)

/-- THE GATHER OF A VECTOR READ AT `j`, whatever the table holds: the operand's entry at the clamped position the
    table's `j`-th word names. -/
theorem gather_vec_clamp_apply {α : Type} {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (j : Fin n) :
    Host.gather (gatherVecDims N n wf) x idx (ix1 j) = x (ix1 (clampRow N hN (idx (ix2 j (0 : Fin 1))))) := by
  unfold Host.gather
  congr 1
  funext a
  obtain rfl : a = 0 := Subsingleton.elim _ _
  refine Fin.ext ?_
  show (gatherVecDims N n wf).start (ix1 j) idx 0 + (gatherVecDims N n wf).batchCoord (ix1 j) 0
    + (gatherVecDims N n wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N n wf).startIndexMap from List.mem_singleton.mpr rfl)]
  have hsi : (gatherVecDims N n wf).siIdx (ix1 j) ⟨List.idxOf (0 : Fin 1) (gatherVecDims N n wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

end Cert.LibGatherVecClamp

end
-- ==== Proof.LibHostRows.lean ====
/-
  Row-wise host operations read at one entry, over the extended reals, for any extents: the host's sum of an [a, b]
  array over its second coordinate at row p is the initial value plus the sum of the row's b entries; a vector of row
  values written as a one-column matrix by broadcast_in_dim along axis 0, and a one-column matrix spread over b columns by
  broadcast_in_dim along both axes, read the row's value; a rank-zero constant spread over any shape reads its one entry.
-/
import Idealize.ShloMosaic.Lib.Pipeline.Value
import Idealize.ShloMosaic.Lib.ValueIdx
import Idealize.ShloMosaic.PureOps.Ideal.Laws

open scoped BigOperators

noncomputable section

namespace Cert.LibHostRows

open Idealize.ShloMosaic Idealize.ShloMosaic.ValueIdx

/-- A row's sum on the host: the add-reduce of an [a, b] array over its columns reads, at row p, the initial value's one
    entry plus the sum of the row's b entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  refine (Ideal.hostReduceAdd_single h' h x (init (Shape.Idx.first hu)) (ix1 p)).trans ?_
  show init (Shape.Idx.first hu) + ∑ k : Fin b, x (h.lift (ix1 p) k) = _
  refine congrArg (init (Shape.Idx.first hu) + ·) (Finset.sum_congr rfl fun k _ => congrArg x ?_)
  funext d; apply Fin.ext
  match d with
  | ⟨0, _⟩ => rfl
  | ⟨1, _⟩ => rfl

variable {α : Type}

/-- A vector of a row values placed along axis 0 of [a, 1] reads, at (p, u), the value of row p. -/
theorem colOfVec_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A one-column matrix [a, 1] spread over b columns (axes kept in place) reads, at (p, c), its row p. -/
theorem spreadCol_apply {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) :=
  broadcastInDim_apply ![0, 1] h w (ix2 p c) (ix2 p (0 : Fin 1)) fun ax => by
    match ax with
    | ⟨0, _⟩ =>
      show p.val = if a = 1 then 0 else p.val
      split
      · have := p.isLt; omega
      · rfl
    | ⟨1, _⟩ => rfl

/-- A rank-zero array spread over any shape reads its one entry everywhere. -/
theorem spreadScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibHostRows

end
-- ==== Proof.LibEdgeWeights.lean ====
/-
  The edge weights of a graph-convolution layer are real numbers, whatever the edge table holds.

  A node's scaling is `dis = deg^(-1/2)` where its degree sum is positive and `0` elsewhere, the root taken of
  `max(deg, 1)`.  On the extended reals `max(d, 1)` is at least one for every `d`, and the inverse root of a real
  number that is at least one is a real number, while the inverse root of +∞ is 0: so `dis` is real at every node, with
  nothing assumed about `deg`.  An edge's weight is the product of the scalings at two gathered positions, hence real.
-/
import Idealize.ShloMosaic.Lib.ValueIdx
import Idealize.ShloMosaic.PureOps.Ideal.Laws
import Idealize.ShloMosaic.Lib.IdealHost
import proofs.«112371_j52364241273249_2_alg».proof.Proof.LibGatherScatterIdx
import proofs.«112371_j52364241273249_2_alg».proof.Proof.LibSegmentRows
import proofs.«112371_j52364241273249_2_alg».proof.Proof.LibGatherVecClamp
import proofs.«112371_j52364241273249_2_alg».proof.Proof.LibHostRows

noncomputable section

namespace Cert.LibEdgeWeights

open Idealize.ShloMosaic Idealize.ShloMosaic.ValueIdx
open Cert.LibGatherScatterIdx (gatherVecDims)

/-- The inverse root of `max(d, 1)` is a real number for every extended real `d`. -/
theorem rsqrt_max_one_real (d : EReal) : ∃ a : ℝ, Ideal.rsqrt (max d 1) = (a : EReal) := by
  induction d using EReal.rec with
  | bot =>
    refine ⟨(Real.sqrt 1)⁻¹, ?_⟩
    rw [max_eq_right bot_le, ← EReal.coe_one, Ideal.rsqrt_coe, if_neg (by norm_num), if_neg (by norm_num)]
  | coe r =>
    refine ⟨(Real.sqrt (max r 1))⁻¹, ?_⟩
    have h1 : (1 : ℝ) ≤ max r 1 := le_max_right r 1
    rw [← EReal.coe_one, ← EReal.coe_strictMono.monotone.map_max, Ideal.rsqrt_coe, if_neg (by linarith), if_neg (by linarith)]
  | top =>
    exact ⟨0, by rw [max_eq_left le_top, Ideal.rsqrt_top, EReal.coe_zero]⟩

/-- The scaling vector, as the program spells it, is real at every node. -/
theorem dis_real {s : Shape} (deg z one zz : FVec Ideal s .f32) (hone : ∀ i, one i = 1) (hzz : ∀ i, zz i = 0)
    (i : s.Idx) :
    ∃ a : ℝ, select (cmpf .ogt deg z) (Host.rsqrt (F := Ideal) (maximumf deg one)) zz i = (a : EReal) := by
  rw [select_apply]
  unfold Scalar.select
  split
  · show ∃ a : ℝ, Ideal.rsqrt (max (deg i) (one i)) = (a : EReal)
    rw [hone]
    exact rsqrt_max_one_real (deg i)
  · exact ⟨0, by rw [hzz, EReal.coe_zero]⟩

/-- An edge's weight, read in the weights' column: the product of the scalings at the two gathered positions. -/
theorem weight_real {N n w : Nat} (hN : 0 < N)
    (wf : GatherDims.WF ⟨1, ![N]⟩ ⟨2, ![n, 1]⟩ ⟨1, ![n]⟩ [] [0] [] [0] [] 1 ![1])
    (dis : FVec Ideal ⟨1, ![N]⟩ .f32) (hdis : ∀ i, ∃ a : ℝ, dis i = (a : EReal)) (ia ib : IVec ⟨2, ![n, 1]⟩ w)
    (h : (⟨1, ![n]⟩ : Shape).BroadcastsInDim ⟨2, ![n, 1]⟩ ![0]) (r : Fin n) (u : Fin 1) :
    ∃ a : ℝ, broadcastInDim ⟨2, ![n, 1]⟩ ![0] h
        (mulf (Host.gather (gatherVecDims N n wf) dis ia) (Host.gather (gatherVecDims N n wf) dis ib)) (ix2 r u) = (a : EReal) := by
  rw [Cert.LibHostRows.colOfVec_apply, mulf_apply, Cert.LibGatherVecClamp.gather_vec_clamp_apply hN,
    Cert.LibGatherVecClamp.gather_vec_clamp_apply hN]
  obtain ⟨a, ha⟩ := hdis (ix1 (Cert.LibSegmentRows.clampRow N hN (ia (ix2 r (0 : Fin 1)))))
  obtain ⟨b, hb⟩ := hdis (ix1 (Cert.LibSegmentRows.clampRow N hN (ib (ix2 r (0 : Fin 1)))))
  exact ⟨a * b, by rw [ha, hb, EReal.coe_mul]⟩

end Cert.LibEdgeWeights

end
-- ==== Proof.LibPadIdx.lean ====
/-
  A `stablehlo.pad` that pads only AFTER the data (no low padding, no interior padding), read at an index.

  Such a pad keeps every element of the operand at its own coordinates and fills the rest of the larger
  array with the padding value. So at an index whose every coordinate is inside the operand's extents the
  result is the operand at the same coordinates (`pad_high_apply_inside`), and at an index with some
  coordinate at or beyond the operand's extent on that axis it is the padding value
  (`pad_high_apply_beyond`). Both hold for any shapes, any rank and any element type.
-/
import Idealize.ShloMosaic.PureOps.Ideal

namespace Cert.LibPadIdx

open Idealize.ShloMosaic

variable {s t u : Shape} {α : Type}

/-- Inside the operand's extent on every axis, a pad with no low and no interior padding reads the operand
    at the same coordinates: `k` is the operand index with `j`'s coordinates. -/
theorem pad_high_apply_inside (lo hi interior : Fin s.rank → Nat) (x : s.Idx → α) (v : u.Idx → α)
    (h : s.Pads lo hi interior t) (hu : 0 < u.numel) (hlo : ∀ a, lo a = 0) (hint : ∀ a, interior a = 0)
    (j : t.Idx) (k : s.Idx) (hk : ∀ a : Fin s.rank, (k a).val = (j (a.cast h.1)).val) :
    pad t lo hi interior x v h hu j = x k := by
  have hcond : ∀ a : Fin s.rank, lo a ≤ (j (a.cast h.1)).val
      ∧ ((j (a.cast h.1)).val - lo a) % (interior a + 1) = 0
      ∧ ((j (a.cast h.1)).val - lo a) / (interior a + 1) < s.size a := by
    intro a
    rw [hlo a, hint a, ← hk a, Nat.sub_zero, Nat.zero_add, Nat.div_one]
    exact ⟨Nat.zero_le _, Nat.mod_one _, (k a).isLt⟩
  unfold pad
  rw [dif_pos hcond]
  refine congrArg x (funext fun a => Fin.ext ?_)
  show ((j (a.cast h.1)).val - lo a) / (interior a + 1) = (k a).val
  rw [hlo a, hint a, hk a, Nat.sub_zero, Nat.zero_add, Nat.div_one]

/-- At or beyond the operand's extent on some axis `a`, such a pad reads the padding value. -/
theorem pad_high_apply_beyond (lo hi interior : Fin s.rank → Nat) (x : s.Idx → α) (v : u.Idx → α)
    (h : s.Pads lo hi interior t) (hu : 0 < u.numel) (hlo : ∀ a, lo a = 0) (hint : ∀ a, interior a = 0)
    (j : t.Idx) (a : Fin s.rank) (ha : s.size a ≤ (j (a.cast h.1)).val) :
    pad t lo hi interior x v h hu j = v (Shape.Idx.first hu) := by
  unfold pad
  rw [dif_neg]
  intro hc
  have h2 := (hc a).2.2
  rw [hlo a, hint a, Nat.sub_zero, Nat.zero_add, Nat.div_one] at h2
  omega

end Cert.LibPadIdx
-- ==== Proof.LibSliceCols.lean ====
/-
  A run of columns cut out of a matrix, read at one entry: the unit-stride slice of an [a, b] array that keeps every row
  and the b' columns from off on holds, at (p, j), the operand's entry (p, off + j) — for any extents and any entries.
  The caller names the operand's column and owes the one linear equation.
-/
import Idealize.ShloMosaic.Lib.Pipeline.Value
import Idealize.ShloMosaic.Lib.ValueIdx

namespace Cert.LibSliceCols

open Idealize.ShloMosaic Idealize.ShloMosaic.ValueIdx

/-- The slice of an [a, b] array at offsets (0, off) with b' columns reads, at (p, j), the operand at (p, k) where
    k = off + j. -/
theorem sliceCols_apply {α : Type} {a b b' : ℕ} (off : ℕ) (x : (⟨2, ![a, b]⟩ : Shape).Idx → α)
    (h : (⟨2, ![a, b]⟩ : Shape).Slices ![0, off] ⟨2, ![a, b']⟩) (p : Fin a) (j : Fin b') (k : Fin b)
    (hk : k.val = off + j.val) :
    extractStridedSlice ⟨2, ![a, b']⟩ ![0, off] x h (ix2 p j) = x (ix2 p k) :=
  extractStridedSlice_apply ![0, off] x h (ix2 p j) (ix2 p k) fun ax => by
    match ax with
    | ⟨0, _⟩ => show p.val = 0 + p.val; omega
    | ⟨1, _⟩ => exact hk

end Cert.LibSliceCols
-- ==== Proof.Bridge.lean ====
/-
  The kernel's function of the arguments is the reference's.

  Both programs end with the same aggregation `out1` of the second layer's projected rows, so it is enough that those
  projected rows agree, and they are the projection of the same activation `act0` of the first layer's aggregate:

    * first layer — the kernel aggregates the 100-wide source rows and then multiplies by the weights, the reference
      multiplies every source row by the weights and then aggregates the 256-wide rows.  With every source entry, every
      weight and every edge weight a real number the two are one double sum (project_aggregate_apply); the edge weights
      are real whatever the edge table holds, the entries by the precondition;
    * second layer — the kernel multiplies by the weights padded with 81 zero columns and keeps the first 47 columns of
      the product; a column of a product reads only that column of the right operand, and inside the first 47 columns the
      padded weights are the weights, so this is the product with the unpadded weights.  Nothing finite is needed here.
-/
import Idealize.ShloMosaic.Lib.ValueIdx
import Idealize.ShloMosaic.PureOps.Ideal.Laws
import Idealize.ShloMosaic.Lib.IdealHost
import proofs.«112371_j52364241273249_2_alg».proof.Proof.Stages
import proofs.«112371_j52364241273249_2_alg».proof.Proof.KernelWalk
import proofs.«112371_j52364241273249_2_alg».proof.Proof.KStages
import proofs.«112371_j52364241273249_2_alg».proof.Proof.StagesAgree
import proofs.«112371_j52364241273249_2_alg».proof.Proof.LibAggregateProject
import proofs.«112371_j52364241273249_2_alg».proof.Proof.LibEdgeWeights
import proofs.«112371_j52364241273249_2_alg».proof.Proof.LibMatProd
import proofs.«112371_j52364241273249_2_alg».proof.Proof.LibPadIdx
import proofs.«112371_j52364241273249_2_alg».proof.Proof.LibSliceCols
import proofs.«112371_j52364241273249_2_alg».proof.Proof.LibHostRows

set_option maxRecDepth 16384

noncomputable section

open scoped BigOperators

namespace Cert.Bridge

open Idealize.ShloMosaic Idealize.ShloMosaic.ValueIdx
open Cert.Stages
open Cert.KernelIdeal.Walk (kerOut)
open Cert.LibMatProd (mm mm_apply)

/-- The zero word spread over any shape reads zero. -/
theorem zeros_apply {t : Shape} (h : (⟨0, ![]⟩ : Shape).BroadcastsInDim t ![]) (j : t.Idx) :
    broadcastInDim t ![] h (constant (F := Ideal) ⟨0, ![]⟩ .f32 0x00000000#32) j = 0 := by
  rw [Cert.LibHostRows.spreadScalar_apply, constant_apply, Ideal.ofBits_zero_f32]

/-- The one word spread over any shape reads one. -/
theorem ones_apply {t : Shape} (h : (⟨0, ![]⟩ : Shape).BroadcastsInDim t ![]) (j : t.Idx) :
    broadcastInDim t ![] h (constant (F := Ideal) ⟨0, ![]⟩ .f32 0x3F800000#32) j = 1 := by
  rw [Cert.LibHostRows.spreadScalar_apply, constant_apply, Ideal.ofBits_one_f32]

/-- The zero word handed on unchanged and spread over any shape reads zero. -/
theorem zeros_id_apply {t : Shape} (h : (⟨0, ![]⟩ : Shape).BroadcastsInDim t ![]) (j : t.Idx) :
    broadcastInDim t ![] h (id (constant (F := Ideal) ⟨0, ![]⟩ .f32 0x00000000#32)) j = 0 :=
  zeros_apply h j

/-! ## The edge weights are real -/

theorem dis0_real (ei : CI Cert.ReferenceIdeal.S2x655360) (i : Cert.ReferenceIdeal.S409600.Idx) :
    ∃ a : ℝ, dis0 ei i = (a : EReal) := by
  unfold dis0
  exact Cert.LibEdgeWeights.dis_real (deg0 ei) _ _ _ (fun j => ones_apply _ j) (fun j => zeros_id_apply _ j) i

theorem nrm0_real (ei : CI Cert.ReferenceIdeal.S2x655360) (r : Fin 655360) :
    ∃ a : ℝ, nrm0 ei (ix2 r (0 : Fin 1)) = (a : EReal) := by
  unfold nrm0
  exact Cert.LibEdgeWeights.weight_real (N := 409600) (n := 655360) (by norm_num) _ (dis0 ei) (dis0_real ei) (row0 ei) (ncol0 ei)
    _ r 0

/-! ## First layer: aggregate-then-project is project-then-aggregate -/

theorem agg_then_project (ei : CI Cert.ReferenceIdeal.S2x655360) (x : CF Cert.ReferenceIdeal.S409600x100)
    (W0 : CF Cert.ReferenceIdeal.S100x256)
    (hx : ∀ i, ∃ a : ℝ, x i = (a : EReal)) (hW : ∀ i, ∃ a : ℝ, W0 i = (a : EReal)) :
    mm (m := 40960) (k := 100) (n := 256) (Cert.KernelIdeal.KStages.agg0 ei x) W0 = pre0 ei x W0 := by
  funext i
  obtain ⟨e, d, rfl⟩ : ∃ (e : Fin 40960) (d : Fin 256), i = ix2 e d := ⟨i 0, i 1, eq_ix2 i⟩
  rw [mm_apply]
  unfold pre0 Cert.KernelIdeal.KStages.agg0
  rw [Cert.StagesAgree.col0_eq, Cert.StagesAgree.row0_eq, Cert.StagesAgree.nrm0_eq]
  refine (Cert.LibAggregateProject.project_aggregate_apply (N := 409600) (C := 100) (D := 256) (E := 40960) (n := 655360)
    (by norm_num) _ _ _ _ _ x W0 (row0 ei) (col0 ei) _ _ (fun r => nrm0 ei (ix2 r (0 : Fin 1))) ?_ ?_ _ _ ?_ ?_ hx hW
    (nrm0_real ei) e d).symm
  · exact fun r c => Cert.LibHostRows.spreadCol_apply _ _ r c
  · exact fun r c => Cert.LibHostRows.spreadCol_apply _ _ r c
  · exact fun j => zeros_apply _ j
  · exact fun j => zeros_apply _ j

/-! ## Second layer: padding the weights, multiplying and cutting is multiplying -/

theorem pad_project_cut (H : CF Cert.ReferenceIdeal.S40960x256) (W1 : CF Cert.ReferenceIdeal.S256x47) :
    Cert.KernelIdeal.KStages.cut47 (mm (m := 40960) (k := 256) (n := 128) H (Cert.KernelIdeal.KStages.padW W1)) = proj1 H W1 := by
  funext i
  obtain ⟨a, j, rfl⟩ : ∃ (a : Fin 40960) (j : Fin 47), i = ix2 a j := ⟨i 0, i 1, eq_ix2 i⟩
  have hj : j.val < 128 := lt_trans j.isLt (by norm_num)
  unfold Cert.KernelIdeal.KStages.cut47 proj1
  refine (Cert.LibSliceCols.sliceCols_apply 0 _ _ a j ⟨j.val, hj⟩ (by simp)).trans ?_
  refine (Cert.LibMatProd.mm_col_congr H W1 (Cert.KernelIdeal.KStages.padW W1) a j ⟨j.val, hj⟩ fun c => ?_).trans
    (congrFun (Cert.LibMatProd.dotGeneral_eq_mm _ none H W1) (ix2 a j)).symm
  unfold Cert.KernelIdeal.KStages.padW
  exact Cert.LibPadIdx.pad_high_apply_inside _ _ _ W1 _ _ _ (fun b => by fin_cases b <;> rfl) (fun b => by fin_cases b <;> rfl)
    (ix2 c ⟨j.val, hj⟩) (ix2 c j) (fun b => by match b with | ⟨0, _⟩ => rfl | ⟨1, _⟩ => rfl)

/-! ## The two programs' functions of the arguments -/

theorem ker_eq_ref (x : CF Cert.ReferenceIdeal.S409600x100) (ei0 : CI Cert.ReferenceIdeal.S2x655360)
    (ei1 : CI Cert.ReferenceIdeal.S2x65536) (W0 : CF Cert.ReferenceIdeal.S100x256) (b0 : CF Cert.ReferenceIdeal.S256)
    (W1 : CF Cert.ReferenceIdeal.S256x47) (b1 : CF Cert.ReferenceIdeal.S47)
    (hx : ∀ i, ∃ a : ℝ, x i = (a : EReal)) (hW : ∀ i, ∃ a : ℝ, W0 i = (a : EReal)) :
    kerOut x ei0 ei1 W0 b0 W1 b1 = refOut x ei0 ei1 W0 b0 W1 b1 := by
  unfold kerOut refOut
  rw [Cert.StagesAgree.out1_eq, Cert.StagesAgree.act0_eq, pad_project_cut, agg_then_project ei0 x W0 hx hW]

end Cert.Bridge

end
-- ==== Proof.lean ====
/-
  A two-layer graph convolution on sampled bipartite neighbourhoods: the kernel against its reference, on the extended reals.

  Each layer scales every edge by dis[source] · dis[target], dis = deg^(-1/2) on nodes of positive degree and 0 elsewhere,
  and adds the scaled source rows up per target.  The reference projects the source rows by the layer's weights and then
  aggregates.  The kernel's first layer aggregates the 100-wide rows FIRST and multiplies the 40960 aggregated rows by the
  weights afterwards (in a pipelined matrix product of ten row bands), adds the bias and clamps at zero; its second layer
  multiplies by the weights padded to 128 columns (a second pipelined product), keeps 47 columns and aggregates as the
  reference does.

  * The frames of the kernel and of its idealization are the generated ones; the reference's frame is its run with the
    result dropped.
  * Nothing was rewritten by the idealization, so there is nothing to preserve.
  * The value claim: the kernel's result buffer, read off the whole run's final contents, is `kerOut` of the arguments;
    the reference's is `refOut`; and `kerOut = refOut` whenever the source features and the first layer's weights are
    real-valued, which the precondition says (Bridge.lean: aggregation commutes with a linear projection over the reals,
    and padded zero columns that are cut away again change nothing).
-/
import proofs.«112371_j52364241273249_2_alg».proof.Defs
import proofs.«112371_j52364241273249_2_alg».proof.Proof.Gen.Kernel
import proofs.«112371_j52364241273249_2_alg».proof.Proof.Gen.Kernel.Skeleton
import proofs.«112371_j52364241273249_2_alg».proof.Proof.Gen.Kernel.Launch
import proofs.«112371_j52364241273249_2_alg».proof.Proof.Gen.Kernel.Points
import proofs.«112371_j52364241273249_2_alg».proof.Proof.Gen.Kernel.Frame
import proofs.«112371_j52364241273249_2_alg».proof.Proof.Gen.KernelIdeal
import proofs.«112371_j52364241273249_2_alg».proof.Proof.Gen.KernelIdeal.Skeleton
import proofs.«112371_j52364241273249_2_alg».proof.Proof.Gen.KernelIdeal.Launch
import proofs.«112371_j52364241273249_2_alg».proof.Proof.Gen.KernelIdeal.Points
import proofs.«112371_j52364241273249_2_alg».proof.Proof.Gen.KernelIdeal.Frame
import proofs.«112371_j52364241273249_2_alg».proof.Proof.Gen.ReferenceIdeal
import proofs.«112371_j52364241273249_2_alg».proof.Proof.Gen.Pre_finite_inputs
import proofs.«112371_j52364241273249_2_alg».proof.Proof.RefRunPatched
import proofs.«112371_j52364241273249_2_alg».proof.Proof.WholeRun
import proofs.«112371_j52364241273249_2_alg».proof.Proof.Stages
import proofs.«112371_j52364241273249_2_alg».proof.Proof.KernelWalk
import proofs.«112371_j52364241273249_2_alg».proof.Proof.FiniteInputs
import proofs.«112371_j52364241273249_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the same result array: the kernel's final contents at
    its result buffer are `kerOut` of the arguments, the reference's result term is `refOut` of them, and the two functions
    agree on real-valued source features and first-layer weights. -/
theorem algebraic : Cert.algebraic_KernelIdeal_ReferenceIdeal := by
  intro m ρ m' ρ' hpre hagree
  refine ⟨fun c => Cert.KernelIdeal.Walk.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Whole.run_contents (F := Ideal) m ρ)
    exact ⟨(h c _ (Cert.KernelIdeal.Gen.mem_uc Cert.KernelIdeal.main_v94 (by decide))).trans (Cert.KernelIdeal.Walk.W12_out m ρ c),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c)⟩
  · refine (θ_run Cert.ReferenceIdeal.defs _ _).mono (fun r h c => ⟨(h c).1.trans ?_, (h c).2⟩)
      (Cert.ReferenceIdeal.ValueP.run (F := Ideal) m' ρ')
    obtain ⟨hx, hW⟩ := Cert.FiniteInputs.real_entries _ _ _ _ _ _ _ (hpre c)
    rw [Cert.Stages.res_eq, (hagree c).1, (hagree c).2.1, (hagree c).2.2.1, (hagree c).2.2.2.1, (hagree c).2.2.2.2.1,
      (hagree c).2.2.2.2.2.1, (hagree c).2.2.2.2.2.2]
    exact (Cert.Bridge.ker_eq_ref _ _ _ _ _ _ _ hx hW).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
